-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v49_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v49_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S16x64 : Shape := ⟨2, ![16, 64]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S16x64 .f32) (main_arg13 : FVec F S16 .f32) (main_arg14 : FVec F S1x16 .f32) (main_arg15 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S16x64 .f32 := Host.absf main_arg12
  let main_cst_20 : FVec F S_ .f32 := constant S_ .f32 0x7F800000#32
  let main_v55 : FVec F S16x64 .f32 := broadcastInDim S16x64 ![] bcast_S_S16x64 main_cst_20
  let main_v56 : IVec S16x64 1 := cmpf .olt main_v54 main_v55
  let main_c_21 : IVec S_ 1 := constantI S_ 1 1#1
  let main_v57 : IVec S_ 1 := (fun x v => Host.reduce IntOp.andi x v reducesTo_S16x64_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S1x16 .f32 := Host.absf main_arg14
  let main_cst_24 : FVec F S_ .f32 := constant S_ .f32 0x7F800000#32
  let main_v65 : FVec F S1x16 .f32 := broadcastInDim S1x16 ![] bcast_S_S1x16 main_cst_24
  let main_v66 : IVec S1x16 1 := cmpf .olt main_v64 main_v65
  let main_c_25 : IVec S_ 1 := constantI S_ 1 1#1
  let main_v67 : IVec S_ 1 := (fun x v => Host.reduce IntOp.andi x v reducesTo_S1x16_S_d0_1 h_S_) main_v66 main_c_25
  fn_part4 (F := F) main_arg15 main_v63 main_v67

def fn_part2 {F : FTy → Type} [FloatOps F] (main_arg8 : FVec F S64x128 .f32) (main_arg9 : FVec F S64 .f32) (main_arg10 : FVec F S64 .f32) (main_arg11 : FVec F S64 .f32) (main_arg12 : FVec F S16x64 .f32) (main_arg13 : FVec F S16 .f32) (main_arg14 : FVec F S1x16 .f32) (main_arg15 : FVec F S1 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S64x128 .f32) (main_arg8 : FVec F S64x128 .f32) (main_arg9 : FVec F S64 .f32) (main_arg10 : FVec F S64 .f32) (main_arg11 : FVec F S64 .f32) (main_arg12 : FVec F S16x64 .f32) (main_arg13 : FVec F S16 .f32) (main_arg14 : FVec F S1x16 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x64 .f32) (main_arg1 : IVec S2x1600000 32) (main_arg2 : FVec F S128x64 .f32) (main_arg3 : FVec F S128x64 .f32) (main_arg4 : FVec F S128 .f32) (main_arg5 : FVec F S128 .f32) (main_arg6 : FVec F S128 .f32) (main_arg7 : FVec F S64x128 .f32) (main_arg8 : FVec F S64x128 .f32) (main_arg9 : FVec F S64 .f32) (main_arg10 : FVec F S64 .f32) (main_arg11 : FVec F S64 .f32) (main_arg12 : FVec F S16x64 .f32) (main_arg13 : FVec F S16 .f32) (main_arg14 : FVec F S1x16 .f32) (main_arg15 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S16x64 : Shape := ⟨2, ![16, 64]⟩
abbrev S16 : Shape := ⟨1, ![16]⟩
abbrev S1x16 : Shape := ⟨2, ![1, 16]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S5000 : Shape := ⟨1, ![5000]⟩
abbrev S1600000x128 : Shape := ⟨2, ![1600000, 128]⟩
abbrev S1x64 : Shape := ⟨2, ![1, 64]⟩
abbrev S64x16 : Shape := ⟨2, ![64, 16]⟩
abbrev S16x1 : Shape := ⟨2, ![16, 1]⟩
abbrev S1x1 : Shape := ⟨2, ![1, 1]⟩
abbrev S5000x16 : Shape := ⟨2, ![5000, 16]⟩

abbrev nBuf : Space → Nat
  | .hbm => 78
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S64x128, .f32⟩
  | .hbm, ⟨8, _⟩ => ⟨S64x128, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S16x64, .f32⟩
  | .hbm, ⟨13, _⟩ => ⟨S16, .f32⟩
  | .hbm, ⟨14, _⟩ => ⟨S1x16, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S100000x1, .f32⟩
  | .hbm, ⟨40, _⟩ => ⟨S64x128, .f32⟩
  | .hbm, ⟨41, _⟩ => ⟨S64x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S100000x1, .f32⟩
  | .hbm, ⟨66, _⟩ => ⟨S128x64, .f32⟩
  | .hbm, ⟨67, _⟩ => ⟨S128x64, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S64x16, .f32⟩
  | .hbm, ⟨72, _⟩ => ⟨S16x1, .f32⟩
  | .hbm, ⟨73, _⟩ => ⟨S1x16, .f32⟩
  | .hbm, ⟨74, _⟩ => ⟨S1x1, .f32⟩
  | .hbm, ⟨75, _⟩ => ⟨S100000x64, .f32⟩
  | .hbm, ⟨76, _⟩ => ⟨S100000x1, .f32⟩
  | .hbm, ⟨77, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S128x64, .f32⟩
  | .local _ .vmem, ⟨20, _⟩ => ⟨S128x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x16, .f32⟩
  | .local _ .vmem, ⟨25, _⟩ => ⟨S1x16, .f32⟩
  | .local _ .vmem, ⟨26, _⟩ => ⟨S16x1, .f32⟩
  | .local _ .vmem, ⟨27, _⟩ => ⟨S1x1, .f32⟩
  | .local _ .vmem, ⟨28, _⟩ => ⟨S5000x64, .f32⟩
  | .local _ .vmem, ⟨29, _⟩ => ⟨S5000x64, .f32⟩
  | .local _ .vmem, ⟨30, _⟩ => ⟨S5000x1, .f32⟩
  | .local _ .vmem, ⟨31, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_3 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49_0 : Ref sig .tc := ⟨.hbm, 75, rfl⟩
abbrev main_v49_1 : Ref sig .tc := ⟨.hbm, 76, rfl⟩
abbrev main_v50 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg12_1 : Ref sig .tc := ⟨.vmem, 29, rfl⟩
abbrev cc1_stg13_0 : Ref sig .tc := ⟨.vmem, 30, rfl⟩
abbrev cc1_stg13_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem12_1 : DmaSem sig := 29
abbrev cc1_sem13_0 : DmaSem sig := 30
abbrev cc1_sem13_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S16x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S5000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S5000x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  shapeCasts_S100000_S100000x1 : S100000.ShapeCasts S100000x1
  transposes_S128x64_S64x128_1_0 : S128x64.Transposes [1, 0] S64x128
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  transposes_S64x128_S128x64_1_0 : S64x128.Transposes [1, 0] S128x64
  shapeCasts_S64_S1x64 : S64.ShapeCasts S1x64
  transposes_S16x64_S64x16_1_0 : S16x64.Transposes [1, 0] S64x16
  transposes_S1x16_S16x1_1_0 : S1x16.Transposes [1, 0] S16x1
  shapeCasts_S16_S1x16 : S16.ShapeCasts S1x16
  shapeCasts_S1_S1x1 : S1.ShapeCasts S1x1
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  dot_S5000x64_S64x16_S5000x16_1_0_0_1_n_n_wf : DotDims.WF S5000x64 S64x16 S5000x16 [1] [0] [0] [1] [] []
  dot_S5000x16_S16x1_S5000x1_1_0_0_1_n_n_wf : DotDims.WF S5000x16 S16x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x16.size a ≤ S64x16.size a
  hwx1_8 : ∀ i : grid1.Coords, EltTy.bits .f32 = 32 ∨ (Rect.block (s := S64x16) S64x16.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x16.size a ≤ S1x16.size a
  hwx1_9 : ∀ i : grid1.Coords, EltTy.bits .f32 = 32 ∨ (Rect.block (s := S1x16) S1x16.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S16x1.size a ≤ S16x1.size a
  hwx1_10 : ∀ i : grid1.Coords, EltTy.bits .f32 = 32 ∨ (Rect.block (s := S16x1) S16x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x64.size a ≤ S100000x64.size a
  hwx1_12 : ∀ i : grid1.Coords, EltTy.bits .f32 = 32 ∨ (Rect.block (s := S100000x64) S5000x64.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S5000x1.size a ≤ S100000x1.size a
  hwx1_13 : ∀ i : grid1.Coords, EltTy.bits .f32 = 32 ∨ (Rect.block (s := S100000x1) S5000x1.size (cc1_transform_13 i) (hinb1_13 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v45) S64x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v47) S1x16.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v46) S16x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v48) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v49_0) S5000x64.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v49_1) S5000x1.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S16x64 : Shape := ⟨2, ![16, 64]⟩
abbrev S16 : Shape := ⟨1, ![16]⟩
abbrev S1x16 : Shape := ⟨2, ![1, 16]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩
abbrev S64x16 : Shape := ⟨2, ![64, 16]⟩
abbrev S100000x16 : Shape := ⟨2, ![100000, 16]⟩
abbrev S16x1 : Shape := ⟨2, ![16, 1]⟩
abbrev S1x1 : Shape := ⟨2, ![1, 1]⟩

abbrev nBuf : Space → Nat
  | .hbm => 178
  | .vmem => 0
  | .smem => 0
  | _ => 0

abbrev hbmTy0_0 (i : Nat) : BufTy := match i % 128 with
  | 0 => ⟨S100000x64, .f32⟩
  | 1 => ⟨S2x1600000, .i32⟩
  | 2 => ⟨S128x64, .f32⟩
  | 3 => ⟨S128x64, .f32⟩
  | 4 => ⟨S128, .f32⟩
  | 5 => ⟨S128, .f32⟩
  | 6 => ⟨S128, .f32⟩
  | 7 => ⟨S64x128, .f32⟩
  | 8 => ⟨S64x128, .f32⟩
  | 9 => ⟨S64, .f32⟩
  | 10 => ⟨S64, .f32⟩
  | 11 => ⟨S64, .f32⟩
  | 12 => ⟨S16x64, .f32⟩
  | 13 => ⟨S16, .f32⟩
  | 14 => ⟨S1x16, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S_, .f32⟩
  | 30 => ⟨S100000x64, .f32⟩
  | 31 => ⟨S1600000x1, .i32⟩
  | 32 => ⟨S100000x64, .f32⟩
  | 33 => ⟨S_, .f32⟩
  | 34 => ⟨S1600000, .f32⟩
  | 35 => ⟨S_, .f32⟩
  | 36 => ⟨S100000, .f32⟩
  | 37 => ⟨S1600000x1, .i32⟩
  | 38 => ⟨S100000, .f32⟩
  | 39 => ⟨S_, .f32⟩
  | 40 => ⟨S_, .f32⟩
  | 41 => ⟨S100000, .f32⟩
  | 42 => ⟨S100000, .f32⟩
  | 43 => ⟨S100000x1, .f32⟩
  | 44 => ⟨S100000x64, .f32⟩
  | 45 => ⟨S100000x64, .f32⟩
  | 46 => ⟨S64x128, .f32⟩
  | 47 => ⟨S100000x128, .f32⟩
  | 48 => ⟨S64x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .f32⟩
  | 58 => ⟨S100000, .f32⟩
  | 59 => ⟨S100000x1, .f32⟩
  | 60 => ⟨S_, .f32⟩
  | 61 => ⟨S100000x1, .f32⟩
  | 62 => ⟨S100000x1, .f32⟩
  | 63 => ⟨S100000x128, .f32⟩
  | 64 => ⟨S100000x128, .f32⟩
  | 65 => ⟨S100000x128, .f32⟩
  | 66 => ⟨S_, .f32⟩
  | 67 => ⟨S100000, .f32⟩
  | 68 => ⟨S100000x1, .f32⟩
  | 69 => ⟨S_, .f32⟩
  | 70 => ⟨S100000x1, .f32⟩
  | 71 => ⟨S100000x1, .f32⟩
  | 72 => ⟨S100000x128, .f32⟩
  | 73 => ⟨S100000x128, .f32⟩
  | 74 => ⟨S_, .f32⟩
  | 75 => ⟨S100000x1, .f32⟩
  | 76 => ⟨S100000x1, .f32⟩
  | 77 => ⟨S100000x1, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S1x1600000, .i32⟩
  | 87 => ⟨S1600000, .i32⟩
  | 88 => ⟨S1x1600000, .i32⟩
  | 89 => ⟨S1600000, .i32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S_, .f32⟩
  | 104 => ⟨S1600000, .f32⟩
  | 105 => ⟨S_, .f32⟩
  | 106 => ⟨S100000, .f32⟩
  | 107 => ⟨S1600000x1, .i32⟩
  | 108 => ⟨S100000, .f32⟩
  | 109 => ⟨S_, .f32⟩
  | 110 => ⟨S_, .f32⟩
  | 111 => ⟨S100000, .f32⟩
  | 112 => ⟨S100000, .f32⟩
  | 113 => ⟨S100000x1, .f32⟩
  | 114 => ⟨S100000x128, .f32⟩
  | 115 => ⟨S100000x128, .f32⟩
  | 116 => ⟨S128x64, .f32⟩
  | 117 => ⟨S100000x64, .f32⟩
  | 118 => ⟨S128x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S100000, .f32⟩
  | 1 => ⟨S100000x1, .f32⟩
  | 2 => ⟨S_, .f32⟩
  | 3 => ⟨S100000x1, .f32⟩
  | 4 => ⟨S100000x1, .f32⟩
  | 5 => ⟨S100000x64, .f32⟩
  | 6 => ⟨S100000x64, .f32⟩
  | 7 => ⟨S100000x64, .f32⟩
  | 8 => ⟨S_, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x64, .f32⟩
  | 15 => ⟨S100000x64, .f32⟩
  | 16 => ⟨S_, .f32⟩
  | 17 => ⟨S100000x1, .f32⟩
  | 18 => ⟨S100000x1, .f32⟩
  | 19 => ⟨S100000x1, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S64x16, .f32⟩
  | 29 => ⟨S100000x16, .f32⟩
  | 30 => ⟨S1x16, .f32⟩
  | 31 => ⟨S100000x16, .f32⟩
  | 32 => ⟨S100000x16, .f32⟩
  | 33 => ⟨S_, .f32⟩
  | 34 => ⟨S100000x16, .f32⟩
  | 35 => ⟨S100000x16, .f32⟩
  | 36 => ⟨S16x1, .f32⟩
  | 37 => ⟨S100000x1, .f32⟩
  | 38 => ⟨S1x1, .f32⟩
  | 39 => ⟨S100000x1, .f32⟩
  | 40 => ⟨S100000x1, .f32⟩
  | 41 => ⟨S100000x1, .f32⟩
  | 42 => ⟨S100000x1, .f32⟩
  | 43 => ⟨S_, .f32⟩
  | 44 => ⟨S100000x1, .f32⟩
  | 45 => ⟨S100000x1, .f32⟩
  | 46 => ⟨S_, .f32⟩
  | 47 => ⟨S100000x1, .f32⟩
  | 48 => ⟨S100000x1, .f32⟩
  | 49 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_cst : Ref sig .tc := ⟨.hbm, 54, rfl⟩
abbrev main_call1_v0 : Ref sig .tc := ⟨.hbm, 55, rfl⟩
abbrev main_v30 : Ref sig .tc := ⟨.hbm, 56, rfl⟩
abbrev main_cst_4 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_6 : Ref sig .tc := ⟨.hbm, 66, rfl⟩
abbrev main_v38 : Ref sig .tc := ⟨.hbm, 67, rfl⟩
abbrev main_v39 : Ref sig .tc := ⟨.hbm, 68, rfl⟩
abbrev main_cst_7 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_9 : Ref sig .tc := ⟨.hbm, 90, rfl⟩
abbrev main_v59 : Ref sig .tc := ⟨.hbm, 91, rfl⟩
abbrev main_v60 : Ref sig .tc := ⟨.hbm, 92, rfl⟩
abbrev main_c_10 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_12 : Ref sig .tc := ⟨.hbm, 103, rfl⟩
abbrev main_v69 : Ref sig .tc := ⟨.hbm, 104, rfl⟩
abbrev main_cst_13 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_call2_v0 : Ref sig .tc := ⟨.hbm, 110, rfl⟩
abbrev main_call2_v1 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_call3_cst : Ref sig .tc := ⟨.hbm, 124, rfl⟩
abbrev main_call3_v0 : Ref sig .tc := ⟨.hbm, 125, rfl⟩
abbrev main_v85 : Ref sig .tc := ⟨.hbm, 126, rfl⟩
abbrev main_cst_15 : Ref sig .tc := ⟨.hbm, 127, rfl⟩
abbrev main_v86 : Ref sig .tc := ⟨.hbm, 128, rfl⟩
abbrev main_v87 : Ref sig .tc := ⟨.hbm, 129, rfl⟩
abbrev main_cst_16 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_17 : Ref sig .tc := ⟨.hbm, 136, rfl⟩
abbrev main_v93 : Ref sig .tc := ⟨.hbm, 137, rfl⟩
abbrev main_v94 : Ref sig .tc := ⟨.hbm, 138, rfl⟩
abbrev main_cst_18 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_19 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_call4_cst : Ref sig .tc := ⟨.hbm, 161, rfl⟩
abbrev main_call4_v0 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_20 : Ref sig .tc := ⟨.hbm, 171, rfl⟩
abbrev main_v123 : Ref sig .tc := ⟨.hbm, 172, rfl⟩
abbrev main_v124 : Ref sig .tc := ⟨.hbm, 173, rfl⟩
abbrev main_cst_21 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  transposes_S16x64_S64x16_1_0 : S16x64.Transposes [1, 0] S64x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  transposes_S1x16_S16x1_1_0 : S1x16.Transposes [1, 0] S16x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x16_S100000x16_1_0_0_1_n_n_wf : DotDims.WF S100000x64 S64x16 S100000x16 [1] [0] [0] [1] [] []
  dot_S100000x16_S16x1_S100000x1_1_0_0_1_n_n_wf : DotDims.WF S100000x16 S16x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.KerRun.lean ====
/-
  The idealized kernel program's run with every unscoped buffer NAMED at its final contents.

  The program is five segments: host operations, the first layer's region, host operations, the second layer's region
  (with the head), and one last host operation. The contents of the buffers at each boundary are a fold through these
  segments from the launch memory; after the last segment every buffer of the TensorCore that outlives a region holds
  the last boundary's contents. The frame claim keeps of this only the argument arrays; here it is kept whole, so that
  the two result arrays can be read off it.
-/
import proofs.«105037_j12884901888283_1_alg».proof.Proof.KernelIdealFrameP

set_option maxRecDepth 16384

noncomputable section

namespace Cert.KerSide

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state every buffer of
    the TensorCore that is not scoped to a region holds the contents of the last boundary of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The two result arrays after the run, each at the last boundary's contents, and the arguments as launched. -/
theorem run_results : θ_run defs (onTc (τ := τ) (main (F := F))) ⟨m, fun _ => 0, ρ⟩ (fun r => ∀ c : Dev nD,
      r.2.mem ((c.tc : Thread nD τ).loc main_v50) = W5 m ρ c (Proc.devRef .tc main_v50)
      ∧ r.2.mem ((c.tc : Thread nD τ).loc main_v49_0) = W5 m ρ c (Proc.devRef .tc main_v49_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
      ⟨h c _ (mem_uc main_v50 (by decide)), h c _ (mem_uc main_v49_0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c)⟩)
    (run_all m ρ)

end Cert.KerSide

end
-- ==== Proof.Spec.lean ====
/-
  One neighbour-mean message-passing layer followed by a per-row normalisation, and the scoring head, written row by
  row on the extended reals.

  A node's row is computed from its own feature row `xi`, the sum `ai` of its in-neighbours' feature rows and its
  in-degree `di`:  the activation  a_j = max(Σ_k xi_k·Ws(k,j) + Σ_k (ai_k / max(di, 1))·Wn(k,j) + b_j, 0),  its mean
  μ = (Σ_j a_j)/n and mean squared deviation  v = (Σ_j (a_j − μ)²)/n  over the row, and the normalised row
  (a_j − μ)·(v + ε)^(-1/2)·g_j + β_j.  The head maps a row `h` to  logistic(Σ_k max(Σ_j h_j·W1(j,k) + c_k, 0)·W2_k + d).
  Nothing here depends on how the rows are tiled or on which program computes them.
-/
import Idealize.ShloMosaic.PureOps.Ideal
import Idealize.ShloMosaic.PureOps.Ideal.Laws
import Idealize.ShloMosaic.Lib.ValueIdx

open scoped BigOperators

noncomputable section

namespace Sage

open Idealize.ShloMosaic

/-- The float words the two programs share, as the extended reals they denote. -/
abbrev wZero : EReal := Ideal.ofBits .f32 0x00000000#32
abbrev wOne : EReal := Ideal.ofBits .f32 0x3F800000#32
abbrev wEps : EReal := Ideal.ofBits .f32 0x3727C5AC#32
abbrev w128 : EReal := Ideal.ofBits .f32 0x43000000#32
abbrev w64 : EReal := Ideal.ofBits .f32 0x42800000#32

/-- The word of `1.0` denotes the number one. -/
theorem wOne_eq : Ideal.ofBits .f32 0x3F800000#32 = 1 := by
  simp [Ideal.ofBits, Ideal.ieee, -EReal.coe_mul]; norm_num

variable {K D : ℕ}

/-- The activation of one row: own features and neighbour mean through their two matrices, the bias, clamped at zero. -/
def act (xi ai : Fin K → EReal) (di : EReal) (Ws Wn : Fin K → Fin D → EReal) (b : Fin D → EReal) (j : Fin D) : EReal :=
  max ((∑ k, xi k * Ws k j) + (∑ k, Ideal.div (ai k) (max di wOne) * Wn k j) + b j) wZero

/-- The mean of a row of `n` entries (`n` given as the float word the programs divide by). -/
def mean (n : EReal) (a : Fin D → EReal) : EReal := Ideal.div (∑ j, a j) n

/-- The mean squared deviation of a row from its mean. -/
def msd (n : EReal) (a : Fin D → EReal) : EReal := Ideal.div (∑ j, (a j - mean n a) * (a j - mean n a)) n

/-- The normalised row: deviation times the inverse root of (mean squared deviation + ε), scaled and shifted. -/
def norm (n : EReal) (a g be : Fin D → EReal) (j : Fin D) : EReal :=
  (a j - mean n a) * Ideal.rsqrt (msd n a + wEps) * g j + be j

/-- One layer's row. -/
def layer (n : EReal) (xi ai : Fin K → EReal) (di : EReal) (Ws Wn : Fin K → Fin D → EReal) (b g be : Fin D → EReal)
    (j : Fin D) : EReal :=
  norm n (act xi ai di Ws Wn b) g be j

/-- The score of one row. -/
def head {H M : ℕ} (h : Fin H → EReal) (W1 : Fin H → Fin M → EReal) (c : Fin M → EReal) (W2 : Fin M → EReal) (d : EReal) : EReal :=
  Ideal.logistic ((∑ k, max ((∑ j, h j * W1 j k) + c k) wZero * W2 k) + d)

end Sage

end
-- ==== Proof.ArrSpec.lean ====
/-
  The two layers and the head on whole arrays.

  Row `r` of a layer's result depends on row `r` of the feature array, of the neighbour-sum array and of the degree
  column, and on the whole matrices and parameter rows; the score of node `r` depends on row `r` of the second layer's
  result. The arrays are indexed by rank-2 indices; the row functions of the specification take plain rows.
-/
import proofs.«105037_j12884901888283_1_alg».proof.Proof.Spec
import Idealize.ShloMosaic.Lib.ValueIdx

noncomputable section

namespace Sage

open Idealize.ShloMosaic Idealize.ShloMosaic.ValueIdx

variable {R K D : ℕ}

/-- A rank-2 index's row, as a number below the row count. -/
abbrev row (i : (⟨2, ![R, D]⟩ : Shape).Idx) : Fin R := ⟨(i 0).val, (i 0).isLt⟩
/-- A rank-2 index's column, as a number below the column count. -/
abbrev col (i : (⟨2, ![R, D]⟩ : Shape).Idx) : Fin D := ⟨(i 1).val, (i 1).isLt⟩

/-- One layer on whole arrays: features `X`, neighbour sums `A`, the degree column `Dg`, the two matrices stored
    [K, D], the three parameter rows stored [1, D]. -/
def layerArr (n : EReal) (X A : (⟨2, ![R, K]⟩ : Shape).Idx → EReal) (Dg : (⟨2, ![R, 1]⟩ : Shape).Idx → EReal)
    (Ws Wn : (⟨2, ![K, D]⟩ : Shape).Idx → EReal) (b g be : (⟨2, ![1, D]⟩ : Shape).Idx → EReal) :
    (⟨2, ![R, D]⟩ : Shape).Idx → EReal := fun i =>
  layer n (fun k : Fin K => X (ix2 (row i) k)) (fun k : Fin K => A (ix2 (row i) k)) (Dg (ix2 (row i) (0 : Fin 1)))
    (fun (k : Fin K) (j : Fin D) => Ws (ix2 k j)) (fun (k : Fin K) (j : Fin D) => Wn (ix2 k j))
    (fun j : Fin D => b (ix2 (0 : Fin 1) j)) (fun j : Fin D => g (ix2 (0 : Fin 1) j)) (fun j : Fin D => be (ix2 (0 : Fin 1) j))
    (col i)

theorem layerArr_apply (n : EReal) (X A : (⟨2, ![R, K]⟩ : Shape).Idx → EReal) (Dg : (⟨2, ![R, 1]⟩ : Shape).Idx → EReal)
    (Ws Wn : (⟨2, ![K, D]⟩ : Shape).Idx → EReal) (b g be : (⟨2, ![1, D]⟩ : Shape).Idx → EReal) (r : Fin R) (j : Fin D) :
    layerArr n X A Dg Ws Wn b g be (ix2 r j)
      = layer n (fun k : Fin K => X (ix2 r k)) (fun k : Fin K => A (ix2 r k)) (Dg (ix2 r (0 : Fin 1)))
          (fun (k : Fin K) (j : Fin D) => Ws (ix2 k j)) (fun (k : Fin K) (j : Fin D) => Wn (ix2 k j))
          (fun j : Fin D => b (ix2 (0 : Fin 1) j)) (fun j : Fin D => g (ix2 (0 : Fin 1) j)) (fun j : Fin D => be (ix2 (0 : Fin 1) j)) j := rfl

/-- The scores on whole arrays, as an [R, 1] column: `H` the second layer's result, the head's matrix stored [D, M], its
    bias row [1, M], the output column [M, 1] and the output bias [1, 1]. -/
def scoreArr {M : ℕ} (H : (⟨2, ![R, D]⟩ : Shape).Idx → EReal) (W1 : (⟨2, ![D, M]⟩ : Shape).Idx → EReal)
    (c : (⟨2, ![1, M]⟩ : Shape).Idx → EReal) (W2 : (⟨2, ![M, 1]⟩ : Shape).Idx → EReal) (d : (⟨2, ![1, 1]⟩ : Shape).Idx → EReal) :
    (⟨2, ![R, 1]⟩ : Shape).Idx → EReal := fun i =>
  head (fun j : Fin D => H (ix2 (row i) j)) (fun (j : Fin D) (k : Fin M) => W1 (ix2 j k)) (fun k : Fin M => c (ix2 (0 : Fin 1) k))
    (fun k : Fin M => W2 (ix2 k (0 : Fin 1))) (d (ix2 (0 : Fin 1) (0 : Fin 1)))

theorem scoreArr_apply {M : ℕ} (H : (⟨2, ![R, D]⟩ : Shape).Idx → EReal) (W1 : (⟨2, ![D, M]⟩ : Shape).Idx → EReal)
    (c : (⟨2, ![1, M]⟩ : Shape).Idx → EReal) (W2 : (⟨2, ![M, 1]⟩ : Shape).Idx → EReal) (d : (⟨2, ![1, 1]⟩ : Shape).Idx → EReal)
    (r : Fin R) (u : Fin 1) :
    scoreArr H W1 c W2 d (ix2 r u)
      = head (fun j : Fin D => H (ix2 r j)) (fun (j : Fin D) (k : Fin M) => W1 (ix2 j k)) (fun k : Fin M => c (ix2 (0 : Fin 1) k))
          (fun k : Fin M => W2 (ix2 k (0 : Fin 1))) (d (ix2 (0 : Fin 1) (0 : Fin 1))) := rfl

/-- Equal rows and parameters give equal layer rows. -/
theorem layer_congr (n : EReal) {xi xi' ai ai' : Fin K → EReal} {di di' : EReal} {Ws Ws' Wn Wn' : Fin K → Fin D → EReal}
    {b b' g g' be be' : Fin D → EReal} (h1 : ∀ k, xi k = xi' k) (h2 : ∀ k, ai k = ai' k) (h3 : di = di')
    (h4 : ∀ k j, Ws k j = Ws' k j) (h5 : ∀ k j, Wn k j = Wn' k j) (h6 : ∀ j, b j = b' j) (h7 : ∀ j, g j = g' j)
    (h8 : ∀ j, be j = be' j) (j : Fin D) :
    layer n xi ai di Ws Wn b g be j = layer n xi' ai' di' Ws' Wn' b' g' be' j := by
  obtain rfl : xi = xi' := funext h1
  obtain rfl : ai = ai' := funext h2
  obtain rfl : Ws = Ws' := funext fun k => funext (h4 k)
  obtain rfl : Wn = Wn' := funext fun k => funext (h5 k)
  obtain rfl : b = b' := funext h6
  obtain rfl : g = g' := funext h7
  obtain rfl : be = be' := funext h8
  subst h3
  rfl

/-- Equal rows and parameters give equal scores. -/
theorem head_congr {H M : ℕ} {h h' : Fin H → EReal} {W1 W1' : Fin H → Fin M → EReal} {c c' : Fin M → EReal} {W2 W2' : Fin M → EReal}
    {d d' : EReal} (h1 : ∀ j, h j = h' j) (h2 : ∀ j k, W1 j k = W1' j k) (h3 : ∀ k, c k = c' k) (h4 : ∀ k, W2 k = W2' k) (h5 : d = d') :
    head h W1 c W2 d = head h' W1' c' W2' d' := by
  obtain rfl : h = h' := funext h1
  obtain rfl : W1 = W1' := funext fun j => funext (h2 j)
  obtain rfl : c = c' := funext h3
  obtain rfl : W2 = W2' := funext h4
  subst h5
  rfl

end Sage

end
-- ==== Proof.KerBlocks0.lean ====
/-
  The first layer's region, from blocks to the whole array.

  The region's grid has 20 points; point `t` reads rows 5000·t … 5000·t + 4999 of the node features, of the neighbour
  sums and of the degree column, reads the two matrices and the three parameter rows whole, and writes rows
  5000·t … 5000·t + 4999 of the output. A row of the output depends on the same row of the three row-tiled inputs only,
  so the blocks are restrictions of ONE function of the arrays as the region finds them, and the 20 blocks cover the
  100000 rows: the output array ends holding that function. Everything here is stated for arbitrary contents `V` of the
  buffers at the region's entry.
-/
import proofs.«105037_j12884901888283_1_alg».proof.Proof.KernelIdealFrameP
import proofs.«105037_j12884901888283_1_alg».proof.Proof.ArrSpec
import Idealize.ShloMosaic.Lib.Pipeline.Value
import Idealize.ShloMosaic.Lib.ValueIdx

set_option maxRecDepth 16384

noncomputable section

namespace Cert.KerSide

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The index maps over the grid

A row-tiled window's block index is the point's number on the row axis and zero on the other; a window whose block is
its whole array has block index zero. -/

theorem idx_rows0_0 : ∀ t : Fin cfg0.N, win0_0.index t (0 : Fin 2) = t.val ∧ win0_0.index t (1 : Fin 2) = 0 :=
  (by decide +kernel : ∀ t : Fin grid0.N, _)
theorem idx_rows0_1 : ∀ t : Fin cfg0.N, win0_1.index t (0 : Fin 2) = t.val ∧ win0_1.index t (1 : Fin 2) = 0 :=
  (by decide +kernel : ∀ t : Fin grid0.N, _)
theorem idx_rows0_2 : ∀ t : Fin cfg0.N, win0_2.index t (0 : Fin 2) = t.val ∧ win0_2.index t (1 : Fin 2) = 0 :=
  (by decide +kernel : ∀ t : Fin grid0.N, _)
theorem idx_rows0_8 : ∀ t : Fin cfg0.N, win0_8.index t (0 : Fin 2) = t.val ∧ win0_8.index t (1 : Fin 2) = 0 :=
  (by decide +kernel : ∀ t : Fin grid0.N, _)
theorem idx_whole0_3 : ∀ t : Fin cfg0.N, win0_3.index t (0 : Fin 2) = 0 ∧ win0_3.index t (1 : Fin 2) = 0 :=
  (by decide +kernel : ∀ t : Fin grid0.N, _)
theorem idx_whole0_4 : ∀ t : Fin cfg0.N, win0_4.index t (0 : Fin 2) = 0 ∧ win0_4.index t (1 : Fin 2) = 0 :=
  (by decide +kernel : ∀ t : Fin grid0.N, _)
theorem idx_whole0_5 : ∀ t : Fin cfg0.N, win0_5.index t (0 : Fin 2) = 0 ∧ win0_5.index t (1 : Fin 2) = 0 :=
  (by decide +kernel : ∀ t : Fin grid0.N, _)
theorem idx_whole0_6 : ∀ t : Fin cfg0.N, win0_6.index t (0 : Fin 2) = 0 ∧ win0_6.index t (1 : Fin 2) = 0 :=
  (by decide +kernel : ∀ t : Fin grid0.N, _)
theorem idx_whole0_7 : ∀ t : Fin cfg0.N, win0_7.index t (0 : Fin 2) = 0 ∧ win0_7.index t (1 : Fin 2) = 0 :=
  (by decide +kernel : ∀ t : Fin grid0.N, _)

theorem pt_lt0 (t : Fin cfg0.N) : t.val < 20 := lt_of_lt_of_eq t.isLt N_0

/-! ## The input blocks, read where they sit in their arrays -/

theorem blk0_0 (c : Dev nD) (t : Fin cfg0.N) (p : Fin 5000) (k : Fin 64) (r : Fin 100000) (hr : r.val = t.val * 5000 + p.val) :
    iblk0 V c 0 t (ix2 p k) = V c main_arg0 (ix2 r k) := by
  show V c main_arg0 (((cfg0.win 0).blk t).view.emb (ix2 p k)) = _
  refine congrArg _ (funext fun a => Fin.ext ?_)
  have e0 := (idx_rows0_0 t).1
  have e1 := (idx_rows0_0 t).2
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

theorem blk0_1 (c : Dev nD) (t : Fin cfg0.N) (p : Fin 5000) (k : Fin 64) (r : Fin 100000) (hr : r.val = t.val * 5000 + p.val) :
    iblk0 V c 1 t (ix2 p k) = V c main_v13 (ix2 r k) := by
  show V c main_v13 (((cfg0.win 1).blk t).view.emb (ix2 p k)) = _
  refine congrArg _ (funext fun a => Fin.ext ?_)
  have e0 := (idx_rows0_1 t).1
  have e1 := (idx_rows0_1 t).2
  match a with
  | ⟨0, _⟩ => show win0_1.index t (0 : Fin 2) * 5000 + 1 * p.val = r.val; rw [e0, hr]; omega
  | ⟨1, _⟩ => show win0_1.index t (1 : Fin 2) * 64 + 1 * k.val = k.val; rw [e1]; omega

theorem blk0_2 (c : Dev nD) (t : Fin cfg0.N) (p : Fin 5000) (r : Fin 100000) (hr : r.val = t.val * 5000 + p.val) :
    iblk0 V c 2 t (ix2 p (0 : Fin 1)) = V c main_v18 (ix2 r (0 : Fin 1)) := by
  show V c main_v18 (((cfg0.win 2).blk t).view.emb (ix2 p (0 : Fin 1))) = _
  refine congrArg _ (funext fun a => Fin.ext ?_)
  have e0 := (idx_rows0_2 t).1
  have e1 := (idx_rows0_2 t).2
  match a with
  | ⟨0, _⟩ => show win0_2.index t (0 : Fin 2) * 5000 + 1 * p.val = r.val; rw [e0, hr]; omega
  | ⟨1, _⟩ => show win0_2.index t (1 : Fin 2) * 1 + 1 * (0 : Fin 1).val = (0 : Fin 1).val; rw [e1]; omega

theorem blk0_3 (c : Dev nD) (t : Fin cfg0.N) (a : Fin 64) (b : Fin 128) :
    iblk0 V c 3 t (ix2 a b) = V c main_v19 (ix2 a b) := by
  show V c main_v19 (((cfg0.win 3).blk t).view.emb (ix2 a b)) = _
  refine congrArg _ (funext fun d => Fin.ext ?_)
  have e0 := (idx_whole0_3 t).1
  have e1 := (idx_whole0_3 t).2
  match d with
  | ⟨0, _⟩ => show win0_3.index t (0 : Fin 2) * 64 + 1 * a.val = a.val; rw [e0]; omega
  | ⟨1, _⟩ => show win0_3.index t (1 : Fin 2) * 128 + 1 * b.val = b.val; rw [e1]; omega

theorem blk0_4 (c : Dev nD) (t : Fin cfg0.N) (a : Fin 64) (b : Fin 128) :
    iblk0 V c 4 t (ix2 a b) = V c main_v20 (ix2 a b) := by
  show V c main_v20 (((cfg0.win 4).blk t).view.emb (ix2 a b)) = _
  refine congrArg _ (funext fun d => Fin.ext ?_)
  have e0 := (idx_whole0_4 t).1
  have e1 := (idx_whole0_4 t).2
  match d with
  | ⟨0, _⟩ => show win0_4.index t (0 : Fin 2) * 64 + 1 * a.val = a.val; rw [e0]; omega
  | ⟨1, _⟩ => show win0_4.index t (1 : Fin 2) * 128 + 1 * b.val = b.val; rw [e1]; omega

theorem blk0_5 (c : Dev nD) (t : Fin cfg0.N) (a : Fin 1) (b : Fin 128) :
    iblk0 V c 5 t (ix2 a b) = V c main_v21 (ix2 a b) := by
  show V c main_v21 (((cfg0.win 5).blk t).view.emb (ix2 a b)) = _
  refine congrArg _ (funext fun d => Fin.ext ?_)
  have e0 := (idx_whole0_5 t).1
  have e1 := (idx_whole0_5 t).2
  match d with
  | ⟨0, _⟩ => show win0_5.index t (0 : Fin 2) * 1 + 1 * a.val = a.val; rw [e0]; omega
  | ⟨1, _⟩ => show win0_5.index t (1 : Fin 2) * 128 + 1 * b.val = b.val; rw [e1]; omega

theorem blk0_6 (c : Dev nD) (t : Fin cfg0.N) (a : Fin 1) (b : Fin 128) :
    iblk0 V c 6 t (ix2 a b) = V c main_v22 (ix2 a b) := by
  show V c main_v22 (((cfg0.win 6).blk t).view.emb (ix2 a b)) = _
  refine congrArg _ (funext fun d => Fin.ext ?_)
  have e0 := (idx_whole0_6 t).1
  have e1 := (idx_whole0_6 t).2
  match d with
  | ⟨0, _⟩ => show win0_6.index t (0 : Fin 2) * 1 + 1 * a.val = a.val; rw [e0]; omega
  | ⟨1, _⟩ => show win0_6.index t (1 : Fin 2) * 128 + 1 * b.val = b.val; rw [e1]; omega

theorem blk0_7 (c : Dev nD) (t : Fin cfg0.N) (a : Fin 1) (b : Fin 128) :
    iblk0 V c 7 t (ix2 a b) = V c main_v23 (ix2 a b) := by
  show V c main_v23 (((cfg0.win 7).blk t).view.emb (ix2 a b)) = _
  refine congrArg _ (funext fun d => Fin.ext ?_)
  have e0 := (idx_whole0_7 t).1
  have e1 := (idx_whole0_7 t).2
  match d with
  | ⟨0, _⟩ => show win0_7.index t (0 : Fin 2) * 1 + 1 * a.val = a.val; rw [e0]; omega
  | ⟨1, _⟩ => show win0_7.index t (1 : Fin 2) * 128 + 1 * b.val = b.val; rw [e1]; omega

/-! ## The output array -/

/-- What a block of the first layer's kernel holds after the body, row by row: the statement about the body that the
    passage from blocks to the array needs. -/
def Body0 : Prop := ∀ (x0 x1 : Vec Ideal S5000x64 .f32) (x2 : Vec Ideal S5000x1 .f32) (x3 x4 : Vec Ideal S64x128 .f32) (x5 x6 x7 : Vec Ideal S1x128 .f32)
    (p : Fin 5000) (j : Fin 128),
    out0_8 (F := Ideal) x0 x1 x2 x3 x4 x5 x6 x7 (ix2 p j)
      = Sage.layer Sage.w128 (fun k : Fin 64 => x0 (ix2 p k)) (fun k : Fin 64 => x1 (ix2 p k)) (x2 (ix2 p 0))
          (fun (k : Fin 64) (j : Fin 128) => x3 (ix2 k j)) (fun (k : Fin 64) (j : Fin 128) => x4 (ix2 k j)) (fun j : Fin 128 => x5 (ix2 0 j)) (fun j : Fin 128 => x6 (ix2 0 j)) (fun j : Fin 128 => x7 (ix2 0 j)) j

/-- The first layer of the arrays the region finds. -/
def G0 (c : Dev nD) : S100000x128.Idx → EReal :=
  Sage.layerArr Sage.w128 (V c main_arg0 : S100000x64.Idx → EReal) (V c main_v13 : S100000x64.Idx → EReal) (V c main_v18 : S100000x1.Idx → EReal)
    (V c main_v19 : S64x128.Idx → EReal) (V c main_v20 : S64x128.Idx → EReal) (V c main_v21 : S1x128.Idx → EReal) (V c main_v22 : S1x128.Idx → EReal) (V c main_v23 : S1x128.Idx → EReal)

/-- What point `t` writes back is block `t` of the first layer of the arrays. -/
theorem flushed0_8_eq (hb : Body0) (c : Dev nD) (t : Fin cfg0.N) :
    (dat0 V c).flushed 8 t = ((cfg0.win 8).blk t).view.read (Elt Ideal) (G0 V c) := by
  show (cfg0.win 8).cut (grid0.coords t) ((dat0 V c).after 8 t) = _
  rw [after0_8]
  funext y
  obtain ⟨p, j, rfl⟩ : ∃ (p : Fin 5000) (j : Fin 128), y = ix2 p j := ⟨y 0, y 1, eq_ix2 y⟩
  have ht := pt_lt0 t
  have hr : t.val * 5000 + p.val < 100000 := by have := p.isLt; omega
  show out0_8 (F := Ideal) (iblk0 V c 0 t) (iblk0 V c 1 t) (iblk0 V c 2 t) (iblk0 V c 3 t) (iblk0 V c 4 t) (iblk0 V c 5 t) (iblk0 V c 6 t) (iblk0 V c 7 t) (ix2 p j)
      = G0 V c (((cfg0.win 8).blk t).view.emb (ix2 p j))
  have hemb : ((cfg0.win 8).blk t).view.emb (ix2 p j) = ix2 (⟨t.val * 5000 + p.val, hr⟩ : Fin 100000) j := by
    funext a; apply Fin.ext
    have e0 := (idx_rows0_8 t).1
    have e1 := (idx_rows0_8 t).2
    match a with
    | ⟨0, _⟩ => show win0_8.index t (0 : Fin 2) * 5000 + 1 * p.val = t.val * 5000 + p.val; rw [e0]; omega
    | ⟨1, _⟩ => show win0_8.index t (1 : Fin 2) * 128 + 1 * j.val = j.val; rw [e1]; omega
  rw [hemb]
  refine (hb (iblk0 V c 0 t) (iblk0 V c 1 t) (iblk0 V c 2 t) (iblk0 V c 3 t) (iblk0 V c 4 t) (iblk0 V c 5 t) (iblk0 V c 6 t) (iblk0 V c 7 t) p j).trans ?_
  unfold G0
  rw [Sage.layerArr_apply]
  exact Sage.layer_congr _ (fun k => blk0_0 V c t p k _ rfl) (fun k => blk0_1 V c t p k _ rfl) (blk0_2 V c t p _ rfl)
    (fun k j => blk0_3 V c t k j) (fun k j => blk0_4 V c t k j) (fun j => blk0_5 V c t 0 j) (fun j => blk0_6 V c t 0 j) (fun j => blk0_7 V c t 0 j) j

/-- An index of the output array lies in point `t`'s block iff each coordinate lies in the block's range on its axis. -/
theorem mem_blk0_8 (t : Fin cfg0.N) (i : S100000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v24).slice (win0_8.rect t)).set ↔ _
  rw [View.set_slice_whole, Rect.mem_set_unit]
  exact Iff.rfl

/-- The 20 blocks of 5000 rows cover the 100000 rows: row `r` lies in the block of point `r / 5000`. -/
theorem covered0_8 (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_8 _, ?_⟩
  rw [mem_blk0_8]
  have e0 := (idx_rows0_8 ⟨(i 0).val / 5000, by rw [hN]; omega⟩).1
  have e1 := (idx_rows0_8 ⟨(i 0).val / 5000, by rw [hN]; omega⟩).2
  intro a
  match a with
  | ⟨0, _⟩ =>
    show win0_8.index ⟨(i 0).val / 5000, _⟩ (0 : Fin 2) * 5000 ≤ (i 0).val ∧ (i 0).val < win0_8.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_8.index ⟨(i 0).val / 5000, _⟩ (1 : Fin 2) * 128 ≤ (i 1).val ∧ (i 1).val < win0_8.index ⟨(i 0).val / 5000, _⟩ (1 : Fin 2) * 128 + 128
    rw [e1]; omega

/-- The first layer's output array after the region: the first layer of the arrays the region found. -/
theorem final0_8 (hb : Body0) (c : Dev nD) : (dat0 V c).arrAt 8 cfg0.N = G0 V c :=
  (dat0 V c).arrAt_eq_of_cover 8 (G0 V c) (fun t _ => flushed0_8_eq V hb c t) covered0_8

end Cert.KerSide

end
-- ==== Proof.KerBlocks1.lean ====
/-
  The second layer's region (with the scoring head), from blocks to the whole arrays.

  As in the first layer's region, point `t` of 20 reads rows 5000·t … 5000·t + 4999 of the three row-tiled inputs (the
  first layer's result, its neighbour sums, the degree column), everything else whole, and writes the same rows of the
  two outputs: the second layer's result and the column of scores. Both outputs are, row by row, functions of the same
  row of the inputs, so each output array ends holding one function of the arrays the region finds. Everything here is
  stated for arbitrary contents `V` of the buffers at the region's entry.
-/
import proofs.«105037_j12884901888283_1_alg».proof.Proof.KernelIdealFrameP
import proofs.«105037_j12884901888283_1_alg».proof.Proof.ArrSpec
import Idealize.ShloMosaic.Lib.Pipeline.Value
import Idealize.ShloMosaic.Lib.ValueIdx

set_option maxRecDepth 16384

noncomputable section

namespace Cert.KerSide

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The index maps over the grid -/

theorem idx_rows1_0 : ∀ t : Fin cfg1.N, win1_0.index t (0 : Fin 2) = t.val ∧ win1_0.index t (1 : Fin 2) = 0 :=
  (by decide +kernel : ∀ t : Fin grid1.N, _)
theorem idx_rows1_1 : ∀ t : Fin cfg1.N, win1_1.index t (0 : Fin 2) = t.val ∧ win1_1.index t (1 : Fin 2) = 0 :=
  (by decide +kernel : ∀ t : Fin grid1.N, _)
theorem idx_rows1_2 : ∀ t : Fin cfg1.N, win1_2.index t (0 : Fin 2) = t.val ∧ win1_2.index t (1 : Fin 2) = 0 :=
  (by decide +kernel : ∀ t : Fin grid1.N, _)
theorem idx_rows1_12 : ∀ t : Fin cfg1.N, win1_12.index t (0 : Fin 2) = t.val ∧ win1_12.index t (1 : Fin 2) = 0 :=
  (by decide +kernel : ∀ t : Fin grid1.N, _)
theorem idx_rows1_13 : ∀ t : Fin cfg1.N, win1_13.index t (0 : Fin 2) = t.val ∧ win1_13.index t (1 : Fin 2) = 0 :=
  (by decide +kernel : ∀ t : Fin grid1.N, _)
theorem idx_whole1_3 : ∀ t : Fin cfg1.N, win1_3.index t (0 : Fin 2) = 0 ∧ win1_3.index t (1 : Fin 2) = 0 :=
  (by decide +kernel : ∀ t : Fin grid1.N, _)
theorem idx_whole1_4 : ∀ t : Fin cfg1.N, win1_4.index t (0 : Fin 2) = 0 ∧ win1_4.index t (1 : Fin 2) = 0 :=
  (by decide +kernel : ∀ t : Fin grid1.N, _)
theorem idx_whole1_5 : ∀ t : Fin cfg1.N, win1_5.index t (0 : Fin 2) = 0 ∧ win1_5.index t (1 : Fin 2) = 0 :=
  (by decide +kernel : ∀ t : Fin grid1.N, _)
theorem idx_whole1_6 : ∀ t : Fin cfg1.N, win1_6.index t (0 : Fin 2) = 0 ∧ win1_6.index t (1 : Fin 2) = 0 :=
  (by decide +kernel : ∀ t : Fin grid1.N, _)
theorem idx_whole1_7 : ∀ t : Fin cfg1.N, win1_7.index t (0 : Fin 2) = 0 ∧ win1_7.index t (1 : Fin 2) = 0 :=
  (by decide +kernel : ∀ t : Fin grid1.N, _)
theorem idx_whole1_8 : ∀ t : Fin cfg1.N, win1_8.index t (0 : Fin 2) = 0 ∧ win1_8.index t (1 : Fin 2) = 0 :=
  (by decide +kernel : ∀ t : Fin grid1.N, _)
theorem idx_whole1_9 : ∀ t : Fin cfg1.N, win1_9.index t (0 : Fin 2) = 0 ∧ win1_9.index t (1 : Fin 2) = 0 :=
  (by decide +kernel : ∀ t : Fin grid1.N, _)
theorem idx_whole1_10 : ∀ t : Fin cfg1.N, win1_10.index t (0 : Fin 2) = 0 ∧ win1_10.index t (1 : Fin 2) = 0 :=
  (by decide +kernel : ∀ t : Fin grid1.N, _)
theorem idx_whole1_11 : ∀ t : Fin cfg1.N, win1_11.index t (0 : Fin 2) = 0 ∧ win1_11.index t (1 : Fin 2) = 0 :=
  (by decide +kernel : ∀ t : Fin grid1.N, _)

theorem pt_lt1 (t : Fin cfg1.N) : t.val < 20 := lt_of_lt_of_eq t.isLt N_1

/-! ## The input blocks, read where they sit in their arrays -/

theorem blk1_0 (c : Dev nD) (t : Fin cfg1.N) (p : Fin 5000) (k : Fin 128) (r : Fin 100000) (hr : r.val = t.val * 5000 + p.val) :
    iblk1 V c 0 t (ix2 p k) = V c main_v24 (ix2 r k) := by
  show V c main_v24 (((cfg1.win 0).blk t).view.emb (ix2 p k)) = _
  refine congrArg _ (funext fun a => Fin.ext ?_)
  have e0 := (idx_rows1_0 t).1
  have e1 := (idx_rows1_0 t).2
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

theorem blk1_1 (c : Dev nD) (t : Fin cfg1.N) (p : Fin 5000) (k : Fin 128) (r : Fin 100000) (hr : r.val = t.val * 5000 + p.val) :
    iblk1 V c 1 t (ix2 p k) = V c main_v34 (ix2 r k) := by
  show V c main_v34 (((cfg1.win 1).blk t).view.emb (ix2 p k)) = _
  refine congrArg _ (funext fun a => Fin.ext ?_)
  have e0 := (idx_rows1_1 t).1
  have e1 := (idx_rows1_1 t).2
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

theorem blk1_2 (c : Dev nD) (t : Fin cfg1.N) (p : Fin 5000) (r : Fin 100000) (hr : r.val = t.val * 5000 + p.val) :
    iblk1 V c 2 t (ix2 p (0 : Fin 1)) = V c main_v39 (ix2 r (0 : Fin 1)) := by
  show V c main_v39 (((cfg1.win 2).blk t).view.emb (ix2 p (0 : Fin 1))) = _
  refine congrArg _ (funext fun a => Fin.ext ?_)
  have e0 := (idx_rows1_2 t).1
  have e1 := (idx_rows1_2 t).2
  match a with
  | ⟨0, _⟩ => show win1_2.index t (0 : Fin 2) * 5000 + 1 * p.val = r.val; rw [e0, hr]; omega
  | ⟨1, _⟩ => show win1_2.index t (1 : Fin 2) * 1 + 1 * (0 : Fin 1).val = (0 : Fin 1).val; rw [e1]; omega

theorem blk1_3 (c : Dev nD) (t : Fin cfg1.N) (a : Fin 128) (b : Fin 64) :
    iblk1 V c 3 t (ix2 a b) = V c main_v40 (ix2 a b) := by
  show V c main_v40 (((cfg1.win 3).blk t).view.emb (ix2 a b)) = _
  refine congrArg _ (funext fun d => Fin.ext ?_)
  have e0 := (idx_whole1_3 t).1
  have e1 := (idx_whole1_3 t).2
  match d with
  | ⟨0, _⟩ => show win1_3.index t (0 : Fin 2) * 128 + 1 * a.val = a.val; rw [e0]; omega
  | ⟨1, _⟩ => show win1_3.index t (1 : Fin 2) * 64 + 1 * b.val = b.val; rw [e1]; omega

theorem blk1_4 (c : Dev nD) (t : Fin cfg1.N) (a : Fin 128) (b : Fin 64) :
    iblk1 V c 4 t (ix2 a b) = V c main_v41 (ix2 a b) := by
  show V c main_v41 (((cfg1.win 4).blk t).view.emb (ix2 a b)) = _
  refine congrArg _ (funext fun d => Fin.ext ?_)
  have e0 := (idx_whole1_4 t).1
  have e1 := (idx_whole1_4 t).2
  match d with
  | ⟨0, _⟩ => show win1_4.index t (0 : Fin 2) * 128 + 1 * a.val = a.val; rw [e0]; omega
  | ⟨1, _⟩ => show win1_4.index t (1 : Fin 2) * 64 + 1 * b.val = b.val; rw [e1]; omega

theorem blk1_5 (c : Dev nD) (t : Fin cfg1.N) (a : Fin 1) (b : Fin 64) :
    iblk1 V c 5 t (ix2 a b) = V c main_v42 (ix2 a b) := by
  show V c main_v42 (((cfg1.win 5).blk t).view.emb (ix2 a b)) = _
  refine congrArg _ (funext fun d => Fin.ext ?_)
  have e0 := (idx_whole1_5 t).1
  have e1 := (idx_whole1_5 t).2
  match d with
  | ⟨0, _⟩ => show win1_5.index t (0 : Fin 2) * 1 + 1 * a.val = a.val; rw [e0]; omega
  | ⟨1, _⟩ => show win1_5.index t (1 : Fin 2) * 64 + 1 * b.val = b.val; rw [e1]; omega

theorem blk1_6 (c : Dev nD) (t : Fin cfg1.N) (a : Fin 1) (b : Fin 64) :
    iblk1 V c 6 t (ix2 a b) = V c main_v43 (ix2 a b) := by
  show V c main_v43 (((cfg1.win 6).blk t).view.emb (ix2 a b)) = _
  refine congrArg _ (funext fun d => Fin.ext ?_)
  have e0 := (idx_whole1_6 t).1
  have e1 := (idx_whole1_6 t).2
  match d with
  | ⟨0, _⟩ => show win1_6.index t (0 : Fin 2) * 1 + 1 * a.val = a.val; rw [e0]; omega
  | ⟨1, _⟩ => show win1_6.index t (1 : Fin 2) * 64 + 1 * b.val = b.val; rw [e1]; omega

theorem blk1_7 (c : Dev nD) (t : Fin cfg1.N) (a : Fin 1) (b : Fin 64) :
    iblk1 V c 7 t (ix2 a b) = V c main_v44 (ix2 a b) := by
  show V c main_v44 (((cfg1.win 7).blk t).view.emb (ix2 a b)) = _
  refine congrArg _ (funext fun d => Fin.ext ?_)
  have e0 := (idx_whole1_7 t).1
  have e1 := (idx_whole1_7 t).2
  match d with
  | ⟨0, _⟩ => show win1_7.index t (0 : Fin 2) * 1 + 1 * a.val = a.val; rw [e0]; omega
  | ⟨1, _⟩ => show win1_7.index t (1 : Fin 2) * 64 + 1 * b.val = b.val; rw [e1]; omega

theorem blk1_8 (c : Dev nD) (t : Fin cfg1.N) (a : Fin 64) (b : Fin 16) :
    iblk1 V c 8 t (ix2 a b) = V c main_v45 (ix2 a b) := by
  show V c main_v45 (((cfg1.win 8).blk t).view.emb (ix2 a b)) = _
  refine congrArg _ (funext fun d => Fin.ext ?_)
  have e0 := (idx_whole1_8 t).1
  have e1 := (idx_whole1_8 t).2
  match d with
  | ⟨0, _⟩ => show win1_8.index t (0 : Fin 2) * 64 + 1 * a.val = a.val; rw [e0]; omega
  | ⟨1, _⟩ => show win1_8.index t (1 : Fin 2) * 16 + 1 * b.val = b.val; rw [e1]; omega

theorem blk1_9 (c : Dev nD) (t : Fin cfg1.N) (a : Fin 1) (b : Fin 16) :
    iblk1 V c 9 t (ix2 a b) = V c main_v47 (ix2 a b) := by
  show V c main_v47 (((cfg1.win 9).blk t).view.emb (ix2 a b)) = _
  refine congrArg _ (funext fun d => Fin.ext ?_)
  have e0 := (idx_whole1_9 t).1
  have e1 := (idx_whole1_9 t).2
  match d with
  | ⟨0, _⟩ => show win1_9.index t (0 : Fin 2) * 1 + 1 * a.val = a.val; rw [e0]; omega
  | ⟨1, _⟩ => show win1_9.index t (1 : Fin 2) * 16 + 1 * b.val = b.val; rw [e1]; omega

theorem blk1_10 (c : Dev nD) (t : Fin cfg1.N) (a : Fin 16) (b : Fin 1) :
    iblk1 V c 10 t (ix2 a b) = V c main_v46 (ix2 a b) := by
  show V c main_v46 (((cfg1.win 10).blk t).view.emb (ix2 a b)) = _
  refine congrArg _ (funext fun d => Fin.ext ?_)
  have e0 := (idx_whole1_10 t).1
  have e1 := (idx_whole1_10 t).2
  match d with
  | ⟨0, _⟩ => show win1_10.index t (0 : Fin 2) * 16 + 1 * a.val = a.val; rw [e0]; omega
  | ⟨1, _⟩ => show win1_10.index t (1 : Fin 2) * 1 + 1 * b.val = b.val; rw [e1]; omega

theorem blk1_11 (c : Dev nD) (t : Fin cfg1.N) (a : Fin 1) (b : Fin 1) :
    iblk1 V c 11 t (ix2 a b) = V c main_v48 (ix2 a b) := by
  show V c main_v48 (((cfg1.win 11).blk t).view.emb (ix2 a b)) = _
  refine congrArg _ (funext fun d => Fin.ext ?_)
  have e0 := (idx_whole1_11 t).1
  have e1 := (idx_whole1_11 t).2
  match d with
  | ⟨0, _⟩ => show win1_11.index t (0 : Fin 2) * 1 + 1 * a.val = a.val; rw [e0]; omega
  | ⟨1, _⟩ => show win1_11.index t (1 : Fin 2) * 1 + 1 * b.val = b.val; rw [e1]; omega

/-! ## The output arrays -/

/-- What a block of the second layer's result holds after the body, row by row. -/
def Body1_12 : Prop := ∀ (x0 x1 : Vec Ideal S5000x128 .f32) (x2 : Vec Ideal S5000x1 .f32) (x3 x4 : Vec Ideal S128x64 .f32) (x5 x6 x7 : Vec Ideal S1x64 .f32)
    (x8 : Vec Ideal S64x16 .f32) (x9 : Vec Ideal S1x16 .f32) (x10 : Vec Ideal S16x1 .f32) (x11 : Vec Ideal S1x1 .f32) (p : Fin 5000) (j : Fin 64),
    out1_12 (F := Ideal) x0 x1 x2 x3 x4 x5 x6 x7 x8 x9 x10 x11 (ix2 p j)
      = Sage.layer Sage.w64 (fun k : Fin 128 => x0 (ix2 p k)) (fun k : Fin 128 => x1 (ix2 p k)) (x2 (ix2 p 0))
          (fun (k : Fin 128) (j : Fin 64) => x3 (ix2 k j)) (fun (k : Fin 128) (j : Fin 64) => x4 (ix2 k j)) (fun j : Fin 64 => x5 (ix2 0 j)) (fun j : Fin 64 => x6 (ix2 0 j)) (fun j : Fin 64 => x7 (ix2 0 j)) j

/-- What a block of the scores holds after the body, row by row. -/
def Body1_13 : Prop := ∀ (x0 x1 : Vec Ideal S5000x128 .f32) (x2 : Vec Ideal S5000x1 .f32) (x3 x4 : Vec Ideal S128x64 .f32) (x5 x6 x7 : Vec Ideal S1x64 .f32)
    (x8 : Vec Ideal S64x16 .f32) (x9 : Vec Ideal S1x16 .f32) (x10 : Vec Ideal S16x1 .f32) (x11 : Vec Ideal S1x1 .f32) (p : Fin 5000) (u : Fin 1),
    out1_13 (F := Ideal) x0 x1 x2 x3 x4 x5 x6 x7 x8 x9 x10 x11 (ix2 p u)
      = Sage.head (Sage.layer Sage.w64 (fun k : Fin 128 => x0 (ix2 p k)) (fun k : Fin 128 => x1 (ix2 p k)) (x2 (ix2 p 0))
            (fun (k : Fin 128) (j : Fin 64) => x3 (ix2 k j)) (fun (k : Fin 128) (j : Fin 64) => x4 (ix2 k j)) (fun j : Fin 64 => x5 (ix2 0 j)) (fun j : Fin 64 => x6 (ix2 0 j)) (fun j : Fin 64 => x7 (ix2 0 j)))
          (fun (j : Fin 64) (k : Fin 16) => x8 (ix2 j k)) (fun k : Fin 16 => x9 (ix2 0 k)) (fun k : Fin 16 => x10 (ix2 k 0)) (x11 (ix2 0 0))

/-- The second layer of the arrays the region finds. -/
def G1_12 (c : Dev nD) : S100000x64.Idx → EReal :=
  Sage.layerArr Sage.w64 (V c main_v24 : S100000x128.Idx → EReal) (V c main_v34 : S100000x128.Idx → EReal) (V c main_v39 : S100000x1.Idx → EReal)
    (V c main_v40 : S128x64.Idx → EReal) (V c main_v41 : S128x64.Idx → EReal) (V c main_v42 : S1x64.Idx → EReal) (V c main_v43 : S1x64.Idx → EReal) (V c main_v44 : S1x64.Idx → EReal)

/-- The scores of the arrays the region finds, as a column. -/
def G1_13 (c : Dev nD) : S100000x1.Idx → EReal :=
  Sage.scoreArr (G1_12 V c) (V c main_v45 : S64x16.Idx → EReal) (V c main_v47 : S1x16.Idx → EReal) (V c main_v46 : S16x1.Idx → EReal) (V c main_v48 : S1x1.Idx → EReal)

/-- Row `p` of point `t`'s blocks gives row 5000·t + p of the second layer of the arrays. -/
theorem row1 (c : Dev nD) (t : Fin cfg1.N) (p : Fin 5000) (r : Fin 100000) (hr : r.val = t.val * 5000 + p.val) (j : Fin 64) :
    Sage.layer Sage.w64 (fun k : Fin 128 => iblk1 V c 0 t (ix2 p k)) (fun k : Fin 128 => iblk1 V c 1 t (ix2 p k)) (iblk1 V c 2 t (ix2 p 0))
        (fun (k : Fin 128) (j : Fin 64) => iblk1 V c 3 t (ix2 k j)) (fun (k : Fin 128) (j : Fin 64) => iblk1 V c 4 t (ix2 k j))
        (fun j : Fin 64 => iblk1 V c 5 t (ix2 0 j)) (fun j : Fin 64 => iblk1 V c 6 t (ix2 0 j)) (fun j : Fin 64 => iblk1 V c 7 t (ix2 0 j)) j
      = G1_12 V c (ix2 r j) := by
  unfold G1_12
  rw [Sage.layerArr_apply]
  exact Sage.layer_congr _ (fun k => blk1_0 V c t p k r hr) (fun k => blk1_1 V c t p k r hr) (blk1_2 V c t p r hr)
    (fun k j => blk1_3 V c t k j) (fun k j => blk1_4 V c t k j) (fun j => blk1_5 V c t 0 j) (fun j => blk1_6 V c t 0 j) (fun j => blk1_7 V c t 0 j) j

/-- What point `t` writes back to the second layer's result is block `t` of the second layer of the arrays. -/
theorem flushed1_12_eq (hb : Body1_12) (c : Dev nD) (t : Fin cfg1.N) :
    (dat1 V c).flushed 12 t = ((cfg1.win 12).blk t).view.read (Elt Ideal) (G1_12 V c) := by
  show (cfg1.win 12).cut (grid1.coords t) ((dat1 V c).after 12 t) = _
  rw [after1_12]
  funext y
  obtain ⟨p, j, rfl⟩ : ∃ (p : Fin 5000) (j : Fin 64), y = ix2 p j := ⟨y 0, y 1, eq_ix2 y⟩
  have ht := pt_lt1 t
  have hr : t.val * 5000 + p.val < 100000 := by have := p.isLt; omega
  show out1_12 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix2 p j)
      = G1_12 V c (((cfg1.win 12).blk t).view.emb (ix2 p j))
  have hemb : ((cfg1.win 12).blk t).view.emb (ix2 p j) = ix2 (⟨t.val * 5000 + p.val, hr⟩ : Fin 100000) j := by
    funext a; apply Fin.ext
    have e0 := (idx_rows1_12 t).1
    have e1 := (idx_rows1_12 t).2
    match a with
    | ⟨0, _⟩ => show win1_12.index t (0 : Fin 2) * 5000 + 1 * p.val = t.val * 5000 + p.val; rw [e0]; omega
    | ⟨1, _⟩ => show win1_12.index t (1 : Fin 2) * 64 + 1 * j.val = j.val; rw [e1]; omega
  rw [hemb]
  exact (hb (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) p j).trans
    (row1 V c t p _ rfl j)

/-- What point `t` writes back to the scores is block `t` of the scores of the arrays. -/
theorem flushed1_13_eq (hb : Body1_13) (c : Dev nD) (t : Fin cfg1.N) :
    (dat1 V c).flushed 13 t = ((cfg1.win 13).blk t).view.read (Elt Ideal) (G1_13 V c) := by
  show (cfg1.win 13).cut (grid1.coords t) ((dat1 V c).after 13 t) = _
  rw [after1_13]
  funext y
  obtain ⟨p, u, rfl⟩ : ∃ (p : Fin 5000) (u : Fin 1), y = ix2 p u := ⟨y 0, y 1, eq_ix2 y⟩
  have ht := pt_lt1 t
  have hr : t.val * 5000 + p.val < 100000 := by have := p.isLt; omega
  show out1_13 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (ix2 p u)
      = G1_13 V c (((cfg1.win 13).blk t).view.emb (ix2 p u))
  have hemb : ((cfg1.win 13).blk t).view.emb (ix2 p u) = ix2 (⟨t.val * 5000 + p.val, hr⟩ : Fin 100000) u := by
    funext a; apply Fin.ext
    have e0 := (idx_rows1_13 t).1
    have e1 := (idx_rows1_13 t).2
    match a with
    | ⟨0, _⟩ => show win1_13.index t (0 : Fin 2) * 5000 + 1 * p.val = t.val * 5000 + p.val; rw [e0]; omega
    | ⟨1, _⟩ => show win1_13.index t (1 : Fin 2) * 1 + 1 * u.val = u.val; rw [e1]; omega
  rw [hemb]
  refine (hb (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) p u).trans ?_
  unfold G1_13
  rw [Sage.scoreArr_apply]
  exact Sage.head_congr (fun j => row1 V c t p _ rfl j) (fun j k => blk1_8 V c t j k) (fun k => blk1_9 V c t 0 k) (fun k => blk1_10 V c t k 0) (blk1_11 V c t 0 0)

/-- An index of the output array lies in point `t`'s block iff each coordinate lies in the block's range on its axis. -/
theorem mem_blk1_12 (t : Fin cfg1.N) (i : S100000x64.Idx) :
    i ∈ ((cfg1.win 12).blk t).view.set ↔ ∀ a : Fin 2, win1_12.index t a * S5000x64.size a ≤ (i a).val ∧ (i a).val < win1_12.index t a * S5000x64.size a + S5000x64.size a := by
  show i ∈ ((View.whole main_v49_0).slice (win1_12.rect t)).set ↔ _
  rw [View.set_slice_whole, Rect.mem_set_unit]
  exact Iff.rfl

/-- The 20 blocks of 5000 rows cover the 100000 rows: row `r` lies in the block of point `r / 5000`. -/
theorem covered1_12 (i : S100000x64.Idx) : ∃ t : Fin cfg1.N, (cfg1.win 12).flush t = true ∧ i ∈ ((cfg1.win 12).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_12 _, ?_⟩
  rw [mem_blk1_12]
  have e0 := (idx_rows1_12 ⟨(i 0).val / 5000, by rw [hN]; omega⟩).1
  have e1 := (idx_rows1_12 ⟨(i 0).val / 5000, by rw [hN]; omega⟩).2
  intro a
  match a with
  | ⟨0, _⟩ =>
    show win1_12.index ⟨(i 0).val / 5000, _⟩ (0 : Fin 2) * 5000 ≤ (i 0).val ∧ (i 0).val < win1_12.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_12.index ⟨(i 0).val / 5000, _⟩ (1 : Fin 2) * 64 ≤ (i 1).val ∧ (i 1).val < win1_12.index ⟨(i 0).val / 5000, _⟩ (1 : Fin 2) * 64 + 64
    rw [e1]; omega

/-- An index of the output array lies in point `t`'s block iff each coordinate lies in the block's range on its axis. -/
theorem mem_blk1_13 (t : Fin cfg1.N) (i : S100000x1.Idx) :
    i ∈ ((cfg1.win 13).blk t).view.set ↔ ∀ a : Fin 2, win1_13.index t a * S5000x1.size a ≤ (i a).val ∧ (i a).val < win1_13.index t a * S5000x1.size a + S5000x1.size a := by
  show i ∈ ((View.whole main_v49_1).slice (win1_13.rect t)).set ↔ _
  rw [View.set_slice_whole, Rect.mem_set_unit]
  exact Iff.rfl

/-- The 20 blocks of 5000 rows cover the 100000 rows: row `r` lies in the block of point `r / 5000`. -/
theorem covered1_13 (i : S100000x1.Idx) : ∃ t : Fin cfg1.N, (cfg1.win 13).flush t = true ∧ i ∈ ((cfg1.win 13).blk t).view.set := by
  have hi0 : (i 0).val < 100000 := (i 0).isLt
  have hi1 : (i 1).val < 1 := (i 1).isLt
  have hN : cfg1.N = 20 := N_1
  refine ⟨⟨(i 0).val / 5000, by rw [hN]; omega⟩, flush1_13 _, ?_⟩
  rw [mem_blk1_13]
  have e0 := (idx_rows1_13 ⟨(i 0).val / 5000, by rw [hN]; omega⟩).1
  have e1 := (idx_rows1_13 ⟨(i 0).val / 5000, by rw [hN]; omega⟩).2
  intro a
  match a with
  | ⟨0, _⟩ =>
    show win1_13.index ⟨(i 0).val / 5000, _⟩ (0 : Fin 2) * 5000 ≤ (i 0).val ∧ (i 0).val < win1_13.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_13.index ⟨(i 0).val / 5000, _⟩ (1 : Fin 2) * 1 ≤ (i 1).val ∧ (i 1).val < win1_13.index ⟨(i 0).val / 5000, _⟩ (1 : Fin 2) * 1 + 1
    rw [e1]; omega

/-- The second layer's result array after the region. -/
theorem final1_12 (hb : Body1_12) (c : Dev nD) : (dat1 V c).arrAt 12 cfg1.N = G1_12 V c :=
  (dat1 V c).arrAt_eq_of_cover 12 (G1_12 V c) (fun t _ => flushed1_12_eq V hb c t) covered1_12

/-- The column of scores after the region. -/
theorem final1_13 (hb : Body1_13) (c : Dev nD) : (dat1 V c).arrAt 13 cfg1.N = G1_13 V c :=
  (dat1 V c).arrAt_eq_of_cover 13 (G1_13 V c) (fun t _ => flushed1_13_eq V hb c t) covered1_13

end Cert.KerSide

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.KerBody0.lean ====
/-
  The first layer's output block, read at an index.

  The body loads eight whole blocks — a tile of 5000 nodes' feature rows `x`, their neighbour-sum rows `s`, their degree
  column `d`, the two [64, 128] matrices `Ws`, `Wn`, and the bias, scale and shift rows `b`, `g`, `β` — and stores one
  whole block. Every operation in between is either pointwise or acts along a row, so row `p` of the stored block
  depends on row `p` of `x`, `s`, `d` only:

    a_j = max(Σ_k x(p,k)·Ws(k,j) + Σ_k (s(p,k) / max(d(p), 1))·Wn(k,j) + b_j, 0)        (two matrix products, the bias row copied down the rows),
    μ   = (Σ_j a_j) / 128,   v = (Σ_j (a_j − μ)²) / 128                               (two lane sums, kept as [5000, 1] columns),
    out(p, j) = (a_j − μ) · rsqrt(v + ε) · g_j + β_j                                  (the columns copied along the lanes).

  At the ideal values each operation is exact and the narrowing to 16-bit floats before the matrix unit is the
  identity, so these are, term by term, the specification's `Sage.act`, `Sage.mean`, `Sage.msd`, `Sage.norm`: the proof
  reads each intermediate block at `(p, j)` (or a column at `(p, 0)`), bottom-up, over arbitrary loaded blocks, and
  only at the end substitutes the whole-block loads and the single whole-block store.
-/
import proofs.«105037_j12884901888283_1_alg».proof.Proof.Gen.KernelIdeal.Skeleton
import proofs.«105037_j12884901888283_1_alg».proof.Proof.KernelIdealFrameP
import proofs.«105037_j12884901888283_1_alg».proof.Proof.Spec
import proofs.«105037_j12884901888283_1_alg».proof.Proof.LibMatmul
import proofs.«105037_j12884901888283_1_alg».proof.Proof.LibKeepdims
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KerSide

open Cert.KernelIdeal Cert.KernelIdeal.Gen Cert.KernelIdeal.GenP Idealize.ShloMosaic Idealize.ShloMosaic.ValueIdx

namespace Layer1

/-- A sum over the lanes of a two-axis block, read at row `p`: the sum over the row's entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ src 0x00000000#32 h hφ hacc (ix1 p)
      = ∑ k : Fin b, src (ix2 p k) := by
  refine (Ideal.multiReduction_add_single src _ h hφ hacc (ix1 p)).trans ?_
  refine Finset.sum_congr rfl fun k _ => congrArg src ?_
  funext c
  apply Fin.ext
  match c with
  | ⟨0, _⟩ => rfl
  | ⟨1, _⟩ => rfl

/-- The activation row of node `p` of a block: the specification's activation of the node's own feature row, its
    neighbour-sum row and its degree, through the two matrices and the bias row. -/
abbrev rowAct (v0 v1 : Vec Ideal S5000x64 .f32) (v3 : Vec Ideal S5000x1 .f32) (v11 v14 : Vec Ideal S64x128 .f32)
    (v20 : Vec Ideal S1x128 .f32) (p : Fin 5000) : Fin 128 → EReal :=
  Sage.act (fun k : Fin 64 => v0 (ix2 p k)) (fun k : Fin 64 => v1 (ix2 p k)) (v3 (ix2 p 0))
    (fun (k : Fin 64) (j : Fin 128) => v11 (ix2 k j)) (fun (k : Fin 64) (j : Fin 128) => v14 (ix2 k j))
    (fun j : Fin 128 => v20 (ix2 0 j))

/-- The clamped sum of the two matrix products and the bias, at row `p` and lane `j`: the two products are sums over
    the 64 input features, the neighbour sums divided by the row's clamped degree, the bias row copied along the rows. -/
theorem act_apply (v0 v1 : Vec Ideal S5000x64 .f32) (v3 : Vec Ideal S5000x1 .f32) (v11 v14 : Vec Ideal S64x128 .f32)
    (v20 : Vec Ideal S1x128 .f32) (p : Fin 5000) (j : Fin 128) :
    k0_pay2 (F := Ideal) v0 v1 v3 v11 v14 v20 (ix2 p j) = rowAct v0 v1 v3 v11 v14 v20 p j := by
  unfold k0_pay2 rowAct Sage.act
  simp only [shapeCast_self]
  refine congrArg₂ max (congrArg₂ (· + ·) (congrArg₂ (· + ·) ?_ ?_) ?_) rfl
  · exact Cert.MatOps.matmul_plain_zero_apply none _ _ p j
  · refine (Cert.MatOps.matmul_plain_zero_apply none _ _ p j).trans ?_
    refine Finset.sum_congr rfl fun k _ => congrArg (· * v14 (ix2 k j)) ?_
    refine congrArg (Ideal.div (v1 (ix2 p k))) ?_
    exact Keepdims.broadcastTo_a1_ab_apply _ broadcasts_S5000x1_S5000x64 p k 0
  · exact broadcastTo_1b_ab_apply v20 broadcasts_S1x128_S5000x128 p j

/-- The row mean column at row `p`: the sum of the row's 128 activations divided by 128. -/
theorem mean_apply (v0 v1 : Vec Ideal S5000x64 .f32) (v3 : Vec Ideal S5000x1 .f32) (v11 v14 : Vec Ideal S64x128 .f32)
    (v20 : Vec Ideal S1x128 .f32) (p : Fin 5000) (u : Fin 1) :
    k0_pay3 (F := Ideal) v0 v1 v3 v11 v14 v20 (ix2 p u) = Sage.mean Sage.w128 (rowAct v0 v1 v3 v11 v14 v20 p) := by
  unfold k0_pay3 Sage.mean
  refine congrArg₂ Ideal.div ?_ rfl
  refine (Keepdims.shapeCast_a_a1_apply _ shapeCasts_S5000_S5000x1 p u).trans ?_
  refine (laneSum_apply _ reduces_S5000x128_S5000 _ _ p).trans ?_
  exact Finset.sum_congr rfl fun j _ => act_apply v0 v1 v3 v11 v14 v20 p j

/-- The deviation from the row mean at row `p` and lane `j`. -/
theorem dev_apply (v0 v1 : Vec Ideal S5000x64 .f32) (v3 : Vec Ideal S5000x1 .f32) (v11 v14 : Vec Ideal S64x128 .f32)
    (v20 : Vec Ideal S1x128 .f32) (p : Fin 5000) (j : Fin 128) :
    k0_pay5 (F := Ideal) v0 v1 v3 v11 v14 v20 (ix2 p j)
      = rowAct v0 v1 v3 v11 v14 v20 p j - Sage.mean Sage.w128 (rowAct v0 v1 v3 v11 v14 v20 p) := by
  unfold k0_pay5
  refine congrArg₂ (· - ·) (act_apply v0 v1 v3 v11 v14 v20 p j) ?_
  refine (Keepdims.broadcastTo_a1_ab_apply _ broadcasts_S5000x1_S5000x128 p j 0).trans ?_
  exact mean_apply v0 v1 v3 v11 v14 v20 p 0

/-- The mean squared deviation column at row `p`: the sum of the row's 128 squared deviations divided by 128. -/
theorem msd_apply (v0 v1 : Vec Ideal S5000x64 .f32) (v3 : Vec Ideal S5000x1 .f32) (v11 v14 : Vec Ideal S64x128 .f32)
    (v20 : Vec Ideal S1x128 .f32) (p : Fin 5000) (u : Fin 1) :
    k0_pay4 (F := Ideal) v0 v1 v3 v11 v14 v20 (ix2 p u) = Sage.msd Sage.w128 (rowAct v0 v1 v3 v11 v14 v20 p) := by
  unfold k0_pay4 Sage.msd
  refine congrArg₂ Ideal.div ?_ rfl
  refine (Keepdims.shapeCast_a_a1_apply _ shapeCasts_S5000_S5000x1 p u).trans ?_
  refine (laneSum_apply _ reduces_S5000x128_S5000 _ _ p).trans ?_
  refine Finset.sum_congr rfl fun j _ => ?_
  exact congrArg₂ (· * ·) (dev_apply v0 v1 v3 v11 v14 v20 p j) (dev_apply v0 v1 v3 v11 v14 v20 p j)

/-- The stored value from a deviation block `d`, a mean-squared-deviation column `s`, the scale row and the shift row:
    at row `p` and lane `j` it is  d(p, j) · rsqrt(s(p) + ε) · g(j) + β(j). -/
theorem scaleShift_apply (v36 : FVec Ideal S5000x1 .f32) (v38 : FVec Ideal S5000x128 .f32) (v44 v48 : Vec Ideal S1x128 .f32)
    (p : Fin 5000) (j : Fin 128) :
    k0_pay1 (F := Ideal) v36 v38 v44 v48 (ix2 p j)
      = v38 (ix2 p j) * Ideal.rsqrt (v36 (ix2 p 0) + Sage.wEps) * v44 (ix2 0 j) + v48 (ix2 0 j) := by
  unfold k0_pay1
  simp only [shapeCast_self]
  refine congrArg₂ (· + ·) (congrArg₂ (· * ·) (congrArg₂ (· * ·) rfl ?_) ?_) ?_
  · exact Keepdims.broadcastTo_a1_ab_apply _ broadcasts_S5000x1_S5000x128 p j 0
  · exact broadcastTo_1b_ab_apply v44 broadcasts_S1x128_S5000x128 p j
  · exact broadcastTo_1b_ab_apply v48 broadcasts_S1x128_S5000x128 p j

/-- The offset of a whole-block rectangle is zero on both axes. -/
theorem hz : (![0, 0] : Fin 2 → Nat) = fun _ => 0 := funext fun a => by fin_cases a <;> rfl

end Layer1

open Layer1

/-- Layer 1's output block, row by row: row `p` of what the body stores is the specification's layer applied to the
    node's feature row, neighbour-sum row and degree, with the two matrices, the bias, scale and shift rows. -/
theorem out0_8_apply (x0 x1 : Vec Ideal S5000x64 .f32) (x2 : Vec Ideal S5000x1 .f32) (x3 x4 : Vec Ideal S64x128 .f32)
    (x5 x6 x7 : Vec Ideal S1x128 .f32) (p : Fin 5000) (j : Fin 128) :
    out0_8 (F := Ideal) x0 x1 x2 x3 x4 x5 x6 x7 (ix2 p j)
      = Sage.layer Sage.w128 (fun k : Fin 64 => x0 (ix2 p k)) (fun k : Fin 64 => x1 (ix2 p k)) (x2 (ix2 p 0))
          (fun (k : Fin 64) (j : Fin 128) => x3 (ix2 k j)) (fun (k : Fin 64) (j : Fin 128) => x4 (ix2 k j))
          (fun j : Fin 128 => x5 (ix2 0 j)) (fun j : Fin 128 => x6 (ix2 0 j)) (fun j : Fin 128 => x7 (ix2 0 j)) j := by
  unfold out0_8
  rw [View.canon_unit_zero hz]
  simp only [View.ld_unit_zero (S := S5000x64) hz, View.ld_unit_zero (S := S5000x1) hz,
    View.ld_unit_zero (S := S64x128) hz, View.ld_unit_zero (S := S1x128) hz]
  refine (scaleShift_apply _ _ x6 x7 p j).trans ?_
  unfold Sage.layer Sage.norm
  refine congrArg₂ (· + ·) (congrArg₂ (· * ·) (congrArg₂ (· * ·) (dev_apply x0 x1 x2 x3 x4 x5 p j) ?_) rfl) rfl
  exact congrArg (fun t => Ideal.rsqrt (t + Sage.wEps)) (msd_apply x0 x1 x2 x3 x4 x5 p 0)

end Cert.KerSide

end
-- ==== Proof.KerBody1.lean ====
/-
  The second layer's block and the scores' block, as the second kernel's body leaves them, read entry by entry.

  The body loads twelve whole blocks: layer 1's output rows `x0` and their neighbour sums `x1` ([5000, 128]), the degree
  column `x2` ([5000, 1]), the two [128, 64] matrices `x3`, `x4`, the bias, scale and shift rows `x5`, `x6`, `x7`
  ([1, 64]), the head's [64, 16] matrix `x8` with its bias row `x9`, its [16, 1] output column `x10` and the output bias
  `x11`. It stores one [5000, 64] block and one [5000, 1] block, each through the whole-block rectangle, so each block
  is the stored value itself.

  At the ideal values every operation is exact and a change of float format is the identity, so the stored values are
  read off operation by operation at an entry `(p, j)`:
  * the activation  a_j = max(Σ_k x0(p,k)·x3(k,j) + Σ_k (x1(p,k) / max(x2(p,0), 1))·x4(k,j) + x5(0,j), 0):  two matrix
    products into the zero block, the degree column clamped below by one and copied along the row, the bias row copied
    down the rows;
  * the mean  μ = (Σ_j a_j)/64  and the mean squared deviation  v = (Σ_j (a_j − μ)²)/64:  a sum along the 64 lanes, kept as
    a [5000, 1] column, divided by the word of 64;
  * the normalised row  (a_j − μ)·(v + ε)^(-1/2)·x6(0,j) + x7(0,j);
  * the score  logistic(Σ_k max(Σ_j h_j·x8(j,k) + x9(0,k), 0)·x10(k,0) + x11(0,0))  of the normalised row `h`.
  These are the row functions `Sage.act`, `Sage.mean`, `Sage.msd`, `Sage.layer`, `Sage.head` of row `p`.
-/
import proofs.«105037_j12884901888283_1_alg».proof.Proof.KernelIdealFrameP
import proofs.«105037_j12884901888283_1_alg».proof.Proof.Spec
import proofs.«105037_j12884901888283_1_alg».proof.Proof.LibMatmul
import proofs.«105037_j12884901888283_1_alg».proof.Proof.LibKeepdims
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

open scoped BigOperators

noncomputable section

namespace Cert.KerSide

open Cert.KernelIdeal Cert.KernelIdeal.Gen Cert.KernelIdeal.GenP Idealize.ShloMosaic Idealize.ShloMosaic.ValueIdx

namespace Layer2

/-- The zero offsets of a rank-2 rectangle are the constant zero function. -/
theorem zeros2 : (![0, 0] : Fin 2 → Nat) = fun _ => 0 := funext fun a => by fin_cases a <;> rfl

/-- A sum along the 64 lanes of a [5000, 64] block, read at row `p`: the sum over the lane coordinate `k` of the
    entries `(p, k)`. The index over row `p` with lane coordinate `k` inserted is `(p, k)`, coordinate by coordinate. -/
theorem laneSum64_apply (src : FVec Ideal S5000x64 .f32) (h : S5000x64.Reduces [1] S5000) (hφ : FKind.Formats .f32)
    (hacc : (0x00000000#32 : BitVec 32) = 0x00000000#32) (p : Fin 5000) :
    multiReduction (F := Ideal) .add [1] S5000 src 0x00000000#32 h hφ hacc (ix1 p) = ∑ k : Fin 64, src (ix2 p k) := by
  refine (Ideal.multiReduction_add_single src 0x00000000#32 h hφ hacc (ix1 p)).trans ?_
  refine Finset.sum_congr rfl fun k _ => congrArg src ?_
  funext c
  refine Fin.ext ?_
  match c with
  | ⟨0, _⟩ => rfl
  | ⟨1, _⟩ => rfl

/-- The [5000, 128] by [128, 64] product into the zero block, at `(p, j)`. -/
theorem matmulA_apply (l : FVec Ideal S5000x128 .bf16) (r : FVec Ideal S128x64 .bf16) (p : Fin 5000) (j : Fin 64) :
    matmul (F := Ideal) dot_S5000x128_S128x64_S5000x64_1_0_0_1_n_n none l r (constant S5000x64 .f32 0x00000000#32) (ix2 p j)
      = ∑ k : Fin 128, l (ix2 p k) * r (ix2 k j) :=
  Cert.MatOps.matmul_plain_zero_apply none l r p j

/-- The [5000, 64] by [64, 16] product into the zero block, at `(p, k)`. -/
theorem matmulB_apply (l : FVec Ideal S5000x64 .bf16) (r : FVec Ideal S64x16 .bf16) (p : Fin 5000) (k : Fin 16) :
    matmul (F := Ideal) dot_S5000x64_S64x16_S5000x16_1_0_0_1_n_n none l r (constant S5000x16 .f32 0x00000000#32) (ix2 p k)
      = ∑ j : Fin 64, l (ix2 p j) * r (ix2 j k) :=
  Cert.MatOps.matmul_plain_zero_apply none l r p k

/-- The [5000, 16] by [16, 1] product into the zero block, at `(p, u)`. -/
theorem matmulC_apply (l : FVec Ideal S5000x16 .bf16) (r : FVec Ideal S16x1 .bf16) (p : Fin 5000) (u : Fin 1) :
    matmul (F := Ideal) dot_S5000x16_S16x1_S5000x1_1_0_0_1_n_n none l r (constant S5000x1 .f32 0x00000000#32) (ix2 p u)
      = ∑ k : Fin 16, l (ix2 p k) * r (ix2 k u) :=
  Cert.MatOps.matmul_plain_zero_apply none l r p u

/-- The activation block at `(p, j)`: own features and degree-normalised neighbour sum through their matrices, plus the
    bias row, clamped at zero. The neighbour sum's entry `(p, k)` is divided by the degree column's entry of row `p`
    clamped below by one. -/
theorem act_apply (v0 v2 : Vec Ideal S5000x128 .f32) (v4 : Vec Ideal S5000x1 .f32) (v12 v15 : Vec Ideal S128x64 .f32)
    (v21 : Vec Ideal S1x64 .f32) (p : Fin 5000) (j : Fin 64) :
    k1_pay1 (F := Ideal) v0 v2 v4 v12 v15 v21 (ix2 p j)
      = Sage.act (fun k : Fin 128 => v0 (ix2 p k)) (fun k : Fin 128 => v2 (ix2 p k)) (v4 (ix2 p 0))
          (fun (k : Fin 128) (j : Fin 64) => v12 (ix2 k j)) (fun (k : Fin 128) (j : Fin 64) => v15 (ix2 k j))
          (fun j : Fin 64 => v21 (ix2 0 j)) j := by
  unfold k1_pay1 Sage.act
  simp only [shapeCast_self]
  rw [maximumf_apply, addf_apply, addf_apply, matmulA_apply, matmulA_apply, broadcast_apply, broadcastTo_1b_ab_apply]
  refine congrArg₂ max (congrArg₂ (· + ·) (congrArg₂ (· + ·) rfl ?_) rfl) rfl
  refine Finset.sum_congr rfl fun k _ => ?_
  rw [truncf_apply, truncf_apply, divf_apply, Keepdims.broadcastTo_a1_ab_apply _ _ p k 0, maximumf_apply, broadcast_apply]
  rfl

section Rows
variable (v0 v2 : Vec Ideal S5000x128 .f32) (v4 : Vec Ideal S5000x1 .f32) (v12 v15 : Vec Ideal S128x64 .f32)
  (v21 : Vec Ideal S1x64 .f32)

/-- Row `p`'s activation, as the specification writes it. -/
abbrev actRow (p : Fin 5000) : Fin 64 → EReal :=
  Sage.act (fun k : Fin 128 => v0 (ix2 p k)) (fun k : Fin 128 => v2 (ix2 p k)) (v4 (ix2 p 0))
    (fun (k : Fin 128) (j : Fin 64) => v12 (ix2 k j)) (fun (k : Fin 128) (j : Fin 64) => v15 (ix2 k j))
    (fun j : Fin 64 => v21 (ix2 0 j))

/-- The mean column at `(p, u)`: the lane sum of row `p`'s activation, divided by 64. -/
theorem mean_apply (p : Fin 5000) (u : Fin 1) :
    k1_pay2 (F := Ideal) v0 v2 v4 v12 v15 v21 (ix2 p u) = Sage.mean Sage.w64 (actRow v0 v2 v4 v12 v15 v21 p) := by
  unfold k1_pay2 Sage.mean
  rw [divf_apply, Keepdims.shapeCast_a_a1_apply, laneSum64_apply, broadcast_apply]
  refine congrArg₂ Ideal.div (Finset.sum_congr rfl fun k _ => ?_) rfl
  exact act_apply v0 v2 v4 v12 v15 v21 p k

/-- The mean copied along the row, at `(p, j)`. -/
theorem meanRow_apply (p : Fin 5000) (j : Fin 64) :
    k1_pay4 (F := Ideal) v0 v2 v4 v12 v15 v21 (ix2 p j) = Sage.mean Sage.w64 (actRow v0 v2 v4 v12 v15 v21 p) := by
  unfold k1_pay4
  rw [Keepdims.broadcastTo_a1_ab_apply _ _ p j 0]
  exact mean_apply v0 v2 v4 v12 v15 v21 p 0

/-- The mean squared deviation column at `(p, u)`: the lane sum of the squared deviations of row `p`'s activation
    from its mean, divided by 64. -/
theorem msd_apply (p : Fin 5000) (u : Fin 1) :
    k1_pay3 (F := Ideal) v0 v2 v4 v12 v15 v21 (ix2 p u) = Sage.msd Sage.w64 (actRow v0 v2 v4 v12 v15 v21 p) := by
  unfold k1_pay3 Sage.msd
  rw [divf_apply, Keepdims.shapeCast_a_a1_apply, laneSum64_apply, broadcast_apply]
  refine congrArg₂ Ideal.div (Finset.sum_congr rfl fun k _ => ?_) rfl
  rw [mulf_apply, subf_apply, Keepdims.broadcastTo_a1_ab_apply _ _ p k 0, act_apply, mean_apply]

end Rows

/-- The normalised block at `(p, j)`, from an activation block `a`, a mean squared deviation column `v`, a block `μ` of
    means and the scale and shift rows `g`, `β`:  (a(p,j) − μ(p,j))·(v(p,0) + ε)^(-1/2)·g(0,j) + β(0,j). -/
theorem norm_apply (v26 : FVec Ideal S5000x64 .f32) (v37 : FVec Ideal S5000x1 .f32) (v38 : FVec Ideal S5000x64 .f32)
    (v45 v49 : Vec Ideal S1x64 .f32) (p : Fin 5000) (j : Fin 64) :
    k1_pay5 (F := Ideal) v26 v37 v38 v45 v49 (ix2 p j)
      = (v26 (ix2 p j) - v38 (ix2 p j)) * Ideal.rsqrt (v37 (ix2 p 0) + Sage.wEps) * v45 (ix2 0 j) + v49 (ix2 0 j) := by
  unfold k1_pay5
  simp only [shapeCast_self]
  rw [addf_apply, mulf_apply, mulf_apply, subf_apply, Keepdims.broadcastTo_a1_ab_apply _ _ p j 0,
    broadcastTo_1b_ab_apply, broadcastTo_1b_ab_apply]
  rfl

/-- The score column at `(p, u)`: the head applied to row `p` of the normalised block. The [5000, 1] column has one
    entry per row, so `u` is zero. -/
theorem head_apply (v26 : FVec Ideal S5000x64 .f32) (v37 : FVec Ideal S5000x1 .f32) (v38 : FVec Ideal S5000x64 .f32)
    (v45 v49 : Vec Ideal S1x64 .f32) (v54 : Vec Ideal S64x16 .f32) (v58 : Vec Ideal S1x16 .f32) (v65 : Vec Ideal S16x1 .f32)
    (v69 : Vec Ideal S1x1 .f32) (p : Fin 5000) (u : Fin 1) :
    k1_pay6 (F := Ideal) v26 v37 v38 v45 v49 v54 v58 v65 v69 (ix2 p u)
      = Sage.head (fun j : Fin 64 => k1_pay5 (F := Ideal) v26 v37 v38 v45 v49 (ix2 p j))
          (fun (j : Fin 64) (k : Fin 16) => v54 (ix2 j k)) (fun k : Fin 16 => v58 (ix2 0 k))
          (fun k : Fin 16 => v65 (ix2 k 0)) (v69 (ix2 0 0)) := by
  obtain rfl : u = 0 := Subsingleton.elim _ _
  unfold k1_pay6 Sage.head
  simp only [shapeCast_self]
  show Ideal.logistic _ = _
  refine congrArg Ideal.logistic ?_
  rw [addf_apply, matmulC_apply, broadcastTo_1b_ab_apply]
  refine congrArg₂ (· + ·) (Finset.sum_congr rfl fun k _ => ?_) rfl
  rw [truncf_apply, truncf_apply, maximumf_apply, addf_apply, matmulB_apply, broadcast_apply, broadcastTo_1b_ab_apply]
  rfl

end Layer2

open Layer2

/-- Layer 2's block: its entry `(p, j)` is entry `j` of the layer's row of node `p`. The block is the one stored value
    (the store and every load go through the whole-block rectangle); the stored value is the normalised block of the
    activation, its mean squared deviation column and its mean. -/
theorem out1_12_apply (x0 x1 : Vec Ideal S5000x128 .f32) (x2 : Vec Ideal S5000x1 .f32) (x3 x4 : Vec Ideal S128x64 .f32) (x5 x6 x7 : Vec Ideal S1x64 .f32) (x8 : Vec Ideal S64x16 .f32) (x9 : Vec Ideal S1x16 .f32) (x10 : Vec Ideal S16x1 .f32) (x11 : Vec Ideal S1x1 .f32) (p : Fin 5000) (j : Fin 64) :
    out1_12 (F := Ideal) x0 x1 x2 x3 x4 x5 x6 x7 x8 x9 x10 x11 (ix2 p j)
      = Sage.layer Sage.w64 (fun k : Fin 128 => x0 (ix2 p k)) (fun k : Fin 128 => x1 (ix2 p k)) (x2 (ix2 p 0))
          (fun (k : Fin 128) (j : Fin 64) => x3 (ix2 k j)) (fun (k : Fin 128) (j : Fin 64) => x4 (ix2 k j)) (fun j : Fin 64 => x5 (ix2 0 j)) (fun j : Fin 64 => x6 (ix2 0 j)) (fun j : Fin 64 => x7 (ix2 0 j)) j := by
  unfold out1_12
  rw [View.canon_unit_zero zeros2]
  simp only [View.ld_unit_zero (S := S5000x128) zeros2, View.ld_unit_zero (S := S5000x1) zeros2,
    View.ld_unit_zero (S := S128x64) zeros2, View.ld_unit_zero (S := S1x64) zeros2]
  rw [norm_apply, act_apply, msd_apply, meanRow_apply]
  rfl

/-- The scores' block: its entry `(p, u)` is the head applied to the layer's row of node `p`. -/
theorem out1_13_apply (x0 x1 : Vec Ideal S5000x128 .f32) (x2 : Vec Ideal S5000x1 .f32) (x3 x4 : Vec Ideal S128x64 .f32) (x5 x6 x7 : Vec Ideal S1x64 .f32) (x8 : Vec Ideal S64x16 .f32) (x9 : Vec Ideal S1x16 .f32) (x10 : Vec Ideal S16x1 .f32) (x11 : Vec Ideal S1x1 .f32) (p : Fin 5000) (u : Fin 1) :
    out1_13 (F := Ideal) x0 x1 x2 x3 x4 x5 x6 x7 x8 x9 x10 x11 (ix2 p u)
      = Sage.head (Sage.layer Sage.w64 (fun k : Fin 128 => x0 (ix2 p k)) (fun k : Fin 128 => x1 (ix2 p k)) (x2 (ix2 p 0))
            (fun (k : Fin 128) (j : Fin 64) => x3 (ix2 k j)) (fun (k : Fin 128) (j : Fin 64) => x4 (ix2 k j)) (fun j : Fin 64 => x5 (ix2 0 j)) (fun j : Fin 64 => x6 (ix2 0 j)) (fun j : Fin 64 => x7 (ix2 0 j)))
          (fun (j : Fin 64) (k : Fin 16) => x8 (ix2 j k)) (fun k : Fin 16 => x9 (ix2 0 k)) (fun k : Fin 16 => x10 (ix2 k 0)) (x11 (ix2 0 0)) := by
  unfold out1_13
  rw [View.canon_unit_zero zeros2]
  simp only [View.ld_unit_zero (S := S5000x128) zeros2, View.ld_unit_zero (S := S5000x1) zeros2,
    View.ld_unit_zero (S := S128x64) zeros2, View.ld_unit_zero (S := S1x64) zeros2, View.ld_unit_zero (S := S64x16) zeros2,
    View.ld_unit_zero (S := S1x16) zeros2, View.ld_unit_zero (S := S16x1) zeros2, View.ld_unit_zero (S := S1x1) zeros2]
  rw [head_apply]
  refine congrArg (fun h : Fin 64 → EReal => Sage.head h _ _ _ _) (funext fun j => ?_)
  rw [norm_apply, act_apply, msd_apply, meanRow_apply]
  rfl

end Cert.KerSide

end
-- ==== Proof.KerHost0.lean ====
/-
  The host operations before the first layer's region, read back.

  Before the region the program splits the edge list into its source and destination rows, gathers the source nodes'
  feature rows and adds them into their destination nodes (the neighbour sums), adds a one per edge into its destination
  (the in-degrees, then stored as a column), transposes the two matrices and stores the three parameter vectors as rows.
  The reference program starts with the very same operations on the same arguments, so the neighbour sums and the
  degrees are the reference's own stages of the arguments; the rest are re-laid copies of arguments.
-/
import proofs.«105037_j12884901888283_1_alg».proof.Proof.KernelIdealFrameP
import proofs.«105037_j12884901888283_1_alg».proof.Proof.Gen.ReferenceIdeal.Read
import proofs.«105037_j12884901888283_1_alg».proof.Proof.LibKeepdims
import Idealize.ShloMosaic.Lib.StableHlo.Run
import Idealize.ShloMosaic.Lib.ValueLayout
import Idealize.ShloMosaic.Lib.ValueIdx

set_option maxRecDepth 16384

noncomputable section

namespace Cert.KerSide

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The node features reach the region as launched. -/
theorem V1_arg0 (c : Dev nD) : V1 m ρ c main_arg0 = m ((c : Thread nD τ).loc main_arg0) := by
  show StableHlo.after hostOps0 (W0 m ρ c) (Proc.devRef .tc main_arg0) = _
  after_results_simp <;> rfl

/-- The neighbour sums are the reference's scatter stage of the features and the edge list. -/
theorem V1_v13 (c : Dev nD) : (V1 m ρ c main_v13 : S100000x64.Idx → EReal)
    = Cert.ReferenceIdeal.Read.val_main_v13 (F := Ideal) (m ((c : Thread nD τ).loc main_arg0)) (m ((c : Thread nD τ).loc main_arg1)) := by
  show StableHlo.after hostOps0 (W0 m ρ c) (Proc.devRef .tc main_v13) = _
  after_results_simp <;> rfl

/-- The degree column holds, at row `i`, the reference's degree stage at `i`. -/
theorem V1_v18 (c : Dev nD) (i : Fin 100000) : (V1 m ρ c main_v18 : S100000x1.Idx → EReal) (ix2 i (0 : Fin 1))
    = Cert.ReferenceIdeal.Read.val_main_v17 (F := Ideal) (m ((c : Thread nD τ).loc main_arg1)) (ix1 i) := by
  have e : (V1 m ρ c main_v18 : S100000x1.Idx → EReal)
      = shapeCast S100000x1 (Cert.ReferenceIdeal.Read.val_main_v17 (F := Ideal) (m ((c : Thread nD τ).loc main_arg1))) shapeCasts_S100000_S100000x1 := by
    show StableHlo.after hostOps0 (W0 m ρ c) (Proc.devRef .tc main_v18) = _
    after_results_simp <;> rfl
  rw [e]
  exact Keepdims.shapeCast_a_a1_apply _ _ i 0

/-- The first matrix reaches the region transposed. -/
theorem V1_v19 (c : Dev nD) (k : Fin 64) (j : Fin 128) : (V1 m ρ c main_v19 : S64x128.Idx → EReal) (ix2 k j)
    = m ((c : Thread nD τ).loc main_arg2) (ix2 j k) := by
  have e : (V1 m ρ c main_v19 : S64x128.Idx → EReal)
      = transpose S64x128 [1, 0] (m ((c : Thread nD τ).loc main_arg2)) transposes_S128x64_S64x128_1_0 := by
    show StableHlo.after hostOps0 (W0 m ρ c) (Proc.devRef .tc main_v19) = _
    after_results_simp <;> rfl
  rw [e]
  exact transpose_ix2_apply _ _ k j

/-- The second matrix reaches the region transposed. -/
theorem V1_v20 (c : Dev nD) (k : Fin 64) (j : Fin 128) : (V1 m ρ c main_v20 : S64x128.Idx → EReal) (ix2 k j)
    = m ((c : Thread nD τ).loc main_arg3) (ix2 j k) := by
  have e : (V1 m ρ c main_v20 : S64x128.Idx → EReal)
      = transpose S64x128 [1, 0] (m ((c : Thread nD τ).loc main_arg3)) transposes_S128x64_S64x128_1_0 := by
    show StableHlo.after hostOps0 (W0 m ρ c) (Proc.devRef .tc main_v20) = _
    after_results_simp <;> rfl
  rw [e]
  exact transpose_ix2_apply _ _ k j

/-- The bias reaches the region as a row. -/
theorem V1_v21 (c : Dev nD) (j : Fin 128) : (V1 m ρ c main_v21 : S1x128.Idx → EReal) (ix2 (0 : Fin 1) j)
    = m ((c : Thread nD τ).loc main_arg4) (ix1 j) := by
  have e : (V1 m ρ c main_v21 : S1x128.Idx → EReal)
      = shapeCast S1x128 (m ((c : Thread nD τ).loc main_arg4)) shapeCasts_S128_S1x128 := by
    show StableHlo.after hostOps0 (W0 m ρ c) (Proc.devRef .tc main_v21) = _
    after_results_simp <;> rfl
  rw [e]
  exact shapeCast_a_1a_apply _ _ 0 j

/-- The scale reaches the region as a row. -/
theorem V1_v22 (c : Dev nD) (j : Fin 128) : (V1 m ρ c main_v22 : S1x128.Idx → EReal) (ix2 (0 : Fin 1) j)
    = m ((c : Thread nD τ).loc main_arg5) (ix1 j) := by
  have e : (V1 m ρ c main_v22 : S1x128.Idx → EReal)
      = shapeCast S1x128 (m ((c : Thread nD τ).loc main_arg5)) shapeCasts_S128_S1x128 := by
    show StableHlo.after hostOps0 (W0 m ρ c) (Proc.devRef .tc main_v22) = _
    after_results_simp <;> rfl
  rw [e]
  exact shapeCast_a_1a_apply _ _ 0 j

/-- The shift reaches the region as a row. -/
theorem V1_v23 (c : Dev nD) (j : Fin 128) : (V1 m ρ c main_v23 : S1x128.Idx → EReal) (ix2 (0 : Fin 1) j)
    = m ((c : Thread nD τ).loc main_arg6) (ix1 j) := by
  have e : (V1 m ρ c main_v23 : S1x128.Idx → EReal)
      = shapeCast S1x128 (m ((c : Thread nD τ).loc main_arg6)) shapeCasts_S128_S1x128 := by
    show StableHlo.after hostOps0 (W0 m ρ c) (Proc.devRef .tc main_v23) = _
    after_results_simp <;> rfl
  rw [e]
  exact shapeCast_a_1a_apply _ _ 0 j

end Cert.KerSide

end
-- ==== Proof.LibColumn.lean ====
/-
  A column read as a vector.

  An `[a, 1]` column cast to a vector of `a` numbers keeps entry `(i, 0)` at `i`: both have row-major position `i`.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a, 1]` column cast to `[a]` reads, at `i`, the column's entry of row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.Column
-- ==== Proof.KerHost1.lean ====
/-
  The host operations between the two regions and after the second one, read back.

  Between the regions the program repeats the neighbour aggregation on the first layer's result: it gathers the source
  nodes' rows of that result and adds them into their destination nodes, recomputes the in-degrees, transposes the
  second layer's two matrices and the head's two matrices, and stores the bias vectors as rows. The reference applies
  the same operations to ITS first layer's result; so once the two first-layer results are known to be one array, the
  neighbour sums of the second layer are the reference's stage too. After the second region the column of scores is
  read as a vector.
-/
import proofs.«105037_j12884901888283_1_alg».proof.Proof.KernelIdealFrameP
import proofs.«105037_j12884901888283_1_alg».proof.Proof.Gen.ReferenceIdeal.Read
import proofs.«105037_j12884901888283_1_alg».proof.Proof.LibKeepdims
import proofs.«105037_j12884901888283_1_alg».proof.Proof.LibColumn
import Idealize.ShloMosaic.Lib.StableHlo.Run
import Idealize.ShloMosaic.Lib.ValueLayout
import Idealize.ShloMosaic.Lib.ValueIdx

set_option maxRecDepth 16384

noncomputable section

namespace Cert.KerSide

open Cert.KernelIdeal Cert.KernelIdeal.Gen Cert.KernelIdeal.GenP
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## What the first region leaves of the buffers the later operations read -/

/-- The edges' source words are still the reference's stage of the edge list. -/
theorem W2_v1 (c : Dev nD) : W2 m ρ c (Proc.devRef .tc main_v1) = Cert.ReferenceIdeal.Read.val_main_v1 (F := Ideal) (m ((c : Thread nD τ).loc main_arg1)) := by
  rw [W2_of_ne m ρ c main_v1 (by decide)]
  show StableHlo.after hostOps0 (W0 m ρ c) (Proc.devRef .tc main_v1) = _
  after_results_simp <;> rfl

/-- The edges' destination words are still the reference's stage of the edge list. -/
theorem W2_v3 (c : Dev nD) : W2 m ρ c (Proc.devRef .tc main_v3) = Cert.ReferenceIdeal.Read.val_main_v3 (F := Ideal) (m ((c : Thread nD τ).loc main_arg1)) := by
  rw [W2_of_ne m ρ c main_v3 (by decide)]
  show StableHlo.after hostOps0 (W0 m ρ c) (Proc.devRef .tc main_v3) = _
  after_results_simp <;> rfl

/-- The first layer's result buffer holds what the region's write-backs left. -/
theorem W2_v24 (c : Dev nD) : W2 m ρ c (Proc.devRef .tc main_v24) = (dat0 (V1 m ρ) c).arrAt 8 cfg0.N := W2_arr m ρ c 8

theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp <;> rfl

theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl

theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp <;> rfl

theorem W2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results_simp <;> rfl

theorem W2_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results_simp <;> rfl

theorem W2_arg12 (c : Dev nD) : W2 m ρ c (Proc.devRef .tc main_arg12) = m ((c : Thread nD τ).loc main_arg12) := by
  rw [W2_of_ne m ρ c main_arg12 (by decide)]
  show StableHlo.after hostOps0 (W0 m ρ c) (Proc.devRef .tc main_arg12) = _
  after_results_simp <;> rfl

theorem W2_arg13 (c : Dev nD) : W2 m ρ c (Proc.devRef .tc main_arg13) = m ((c : Thread nD τ).loc main_arg13) := by
  rw [W2_of_ne m ρ c main_arg13 (by decide)]
  show StableHlo.after hostOps0 (W0 m ρ c) (Proc.devRef .tc main_arg13) = _
  after_results_simp <;> rfl

theorem W2_arg14 (c : Dev nD) : W2 m ρ c (Proc.devRef .tc main_arg14) = m ((c : Thread nD τ).loc main_arg14) := by
  rw [W2_of_ne m ρ c main_arg14 (by decide)]
  show StableHlo.after hostOps0 (W0 m ρ c) (Proc.devRef .tc main_arg14) = _
  after_results_simp <;> rfl

theorem W2_arg15 (c : Dev nD) : W2 m ρ c (Proc.devRef .tc main_arg15) = m ((c : Thread nD τ).loc main_arg15) := by
  rw [W2_of_ne m ρ c main_arg15 (by decide)]
  show StableHlo.after hostOps0 (W0 m ρ c) (Proc.devRef .tc main_arg15) = _
  after_results_simp <;> rfl

/-! ## The second region's entry -/

/-- The first layer's result reaches the second region as the first region left it. -/
theorem V3_v24 (c : Dev nD) : (V3 m ρ c main_v24 : S100000x128.Idx → EReal) = (dat0 (V1 m ρ) c).arrAt 8 cfg0.N := by
  show StableHlo.after hostOps1 (W2 m ρ c) (Proc.devRef .tc main_v24) = _
  after_results_simp
  exact W2_v24 m ρ c

/-- If the first layer's result is the reference's, the second layer's neighbour sums are the reference's scatter stage. -/
theorem V3_v34 (c : Dev nD)
    (hH : (dat0 (V1 m ρ) c).arrAt 8 cfg0.N = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    (V3 m ρ c main_v34 : S100000x128.Idx → EReal) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v34) = _
  after_results_simp
  rw [W2_v1, W2_v3, W2_v24, hH] <;> rfl

/-- The degree column of the second region holds, at row `i`, the reference's second degree stage at `i`. -/
theorem V3_v39 (c : Dev nD) (i : Fin 100000) : (V3 m ρ c main_v39 : S100000x1.Idx → EReal) (ix2 i (0 : Fin 1))
    = Cert.ReferenceIdeal.Read.val_main_v72 (F := Ideal) (m ((c : Thread nD τ).loc main_arg1)) (ix1 i) := by
  have e : (V3 m ρ c main_v39 : S100000x1.Idx → EReal)
      = shapeCast S100000x1 (Cert.ReferenceIdeal.Read.val_main_v72 (F := Ideal) (m ((c : Thread nD τ).loc main_arg1))) shapeCasts_S100000_S100000x1 := by
    show StableHlo.after hostOps1 (W2 m ρ c) (Proc.devRef .tc main_v39) = _
    after_results_simp
    rw [W2_v3] <;> rfl
  rw [e]
  exact Keepdims.shapeCast_a_a1_apply _ _ i 0

theorem V3_v40 (c : Dev nD) (k : Fin 128) (j : Fin 64) : (V3 m ρ c main_v40 : S128x64.Idx → EReal) (ix2 k j) = (m ((c : Thread nD τ).loc main_arg7)) (ix2 j k) := by
  have e : (V3 m ρ c main_v40 : S128x64.Idx → EReal)
      = transpose S128x64 [1, 0] (m ((c : Thread nD τ).loc main_arg7)) transposes_S64x128_S128x64_1_0 := by
    show StableHlo.after hostOps1 (W2 m ρ c) (Proc.devRef .tc main_v40) = _
    after_results_simp
    rw [W2_arg7] <;> rfl
  rw [e]
  exact transpose_ix2_apply _ _ k j

theorem V3_v41 (c : Dev nD) (k : Fin 128) (j : Fin 64) : (V3 m ρ c main_v41 : S128x64.Idx → EReal) (ix2 k j) = (m ((c : Thread nD τ).loc main_arg8)) (ix2 j k) := by
  have e : (V3 m ρ c main_v41 : S128x64.Idx → EReal)
      = transpose S128x64 [1, 0] (m ((c : Thread nD τ).loc main_arg8)) transposes_S64x128_S128x64_1_0 := by
    show StableHlo.after hostOps1 (W2 m ρ c) (Proc.devRef .tc main_v41) = _
    after_results_simp
    rw [W2_arg8] <;> rfl
  rw [e]
  exact transpose_ix2_apply _ _ k j

theorem V3_v42 (c : Dev nD) (j : Fin 64) : (V3 m ρ c main_v42 : S1x64.Idx → EReal) (ix2 (0 : Fin 1) j) = (m ((c : Thread nD τ).loc main_arg9)) (ix1 j) := by
  have e : (V3 m ρ c main_v42 : S1x64.Idx → EReal)
      = shapeCast S1x64 (m ((c : Thread nD τ).loc main_arg9)) shapeCasts_S64_S1x64 := by
    show StableHlo.after hostOps1 (W2 m ρ c) (Proc.devRef .tc main_v42) = _
    after_results_simp
    rw [W2_arg9] <;> rfl
  rw [e]
  exact shapeCast_a_1a_apply _ _ 0 j

theorem V3_v43 (c : Dev nD) (j : Fin 64) : (V3 m ρ c main_v43 : S1x64.Idx → EReal) (ix2 (0 : Fin 1) j) = (m ((c : Thread nD τ).loc main_arg10)) (ix1 j) := by
  have e : (V3 m ρ c main_v43 : S1x64.Idx → EReal)
      = shapeCast S1x64 (m ((c : Thread nD τ).loc main_arg10)) shapeCasts_S64_S1x64 := by
    show StableHlo.after hostOps1 (W2 m ρ c) (Proc.devRef .tc main_v43) = _
    after_results_simp
    rw [W2_arg10] <;> rfl
  rw [e]
  exact shapeCast_a_1a_apply _ _ 0 j

theorem V3_v44 (c : Dev nD) (j : Fin 64) : (V3 m ρ c main_v44 : S1x64.Idx → EReal) (ix2 (0 : Fin 1) j) = (m ((c : Thread nD τ).loc main_arg11)) (ix1 j) := by
  have e : (V3 m ρ c main_v44 : S1x64.Idx → EReal)
      = shapeCast S1x64 (m ((c : Thread nD τ).loc main_arg11)) shapeCasts_S64_S1x64 := by
    show StableHlo.after hostOps1 (W2 m ρ c) (Proc.devRef .tc main_v44) = _
    after_results_simp
    rw [W2_arg11] <;> rfl
  rw [e]
  exact shapeCast_a_1a_apply _ _ 0 j

theorem V3_v45 (c : Dev nD) (j : Fin 64) (k : Fin 16) : (V3 m ρ c main_v45 : S64x16.Idx → EReal) (ix2 j k) = (m ((c : Thread nD τ).loc main_arg12)) (ix2 k j) := by
  have e : (V3 m ρ c main_v45 : S64x16.Idx → EReal)
      = transpose S64x16 [1, 0] (m ((c : Thread nD τ).loc main_arg12)) transposes_S16x64_S64x16_1_0 := by
    show StableHlo.after hostOps1 (W2 m ρ c) (Proc.devRef .tc main_v45) = _
    after_results_simp
    rw [W2_arg12] <;> rfl
  rw [e]
  exact transpose_ix2_apply _ _ j k

theorem V3_v46 (c : Dev nD) (k : Fin 16) : (V3 m ρ c main_v46 : S16x1.Idx → EReal) (ix2 k (0 : Fin 1)) = (m ((c : Thread nD τ).loc main_arg14)) (ix2 (0 : Fin 1) k) := by
  have e : (V3 m ρ c main_v46 : S16x1.Idx → EReal)
      = transpose S16x1 [1, 0] (m ((c : Thread nD τ).loc main_arg14)) transposes_S1x16_S16x1_1_0 := by
    show StableHlo.after hostOps1 (W2 m ρ c) (Proc.devRef .tc main_v46) = _
    after_results_simp
    rw [W2_arg14] <;> rfl
  rw [e]
  exact transpose_ix2_apply _ _ k 0

theorem V3_v47 (c : Dev nD) (k : Fin 16) : (V3 m ρ c main_v47 : S1x16.Idx → EReal) (ix2 (0 : Fin 1) k) = (m ((c : Thread nD τ).loc main_arg13)) (ix1 k) := by
  have e : (V3 m ρ c main_v47 : S1x16.Idx → EReal)
      = shapeCast S1x16 (m ((c : Thread nD τ).loc main_arg13)) shapeCasts_S16_S1x16 := by
    show StableHlo.after hostOps1 (W2 m ρ c) (Proc.devRef .tc main_v47) = _
    after_results_simp
    rw [W2_arg13] <;> rfl
  rw [e]
  exact shapeCast_a_1a_apply _ _ 0 k

theorem V3_v48 (c : Dev nD) : (V3 m ρ c main_v48 : S1x1.Idx → EReal) (ix2 (0 : Fin 1) (0 : Fin 1)) = (m ((c : Thread nD τ).loc main_arg15)) (ix1 (0 : Fin 1)) := by
  have e : (V3 m ρ c main_v48 : S1x1.Idx → EReal)
      = shapeCast S1x1 (m ((c : Thread nD τ).loc main_arg15)) shapeCasts_S1_S1x1 := by
    show StableHlo.after hostOps1 (W2 m ρ c) (Proc.devRef .tc main_v48) = _
    after_results_simp
    rw [W2_arg15] <;> rfl
  rw [e]
  exact shapeCast_a_1a_apply _ _ 0 0

/-! ## After the second region -/

/-- The second layer's result ends as the second region's write-backs left it. -/
theorem W5_v49_0 (c : Dev nD) : W5 m ρ c (Proc.devRef .tc main_v49_0) = (dat1 (V3 m ρ) c).arrAt 12 cfg1.N := by
  show StableHlo.after hostOps2 (W4 m ρ c) (Proc.devRef .tc main_v49_0) = _
  after_results_simp
  exact W4_arr m ρ c 12

/-- The vector of scores holds, at `i`, the column of scores at row `i`. -/
theorem W5_v50 (c : Dev nD) (i : Fin 100000) : (W5 m ρ c (Proc.devRef .tc main_v50) : S100000.Idx → EReal) (ix1 i)
    = ((dat1 (V3 m ρ) c).arrAt 13 cfg1.N : S100000x1.Idx → EReal) (ix2 i (0 : Fin 1)) := by
  have e : (W5 m ρ c (Proc.devRef .tc main_v50) : S100000.Idx → EReal)
      = shapeCast S100000 ((dat1 (V3 m ρ) c).arrAt 13 cfg1.N : S100000x1.Idx → EReal) shapeCasts_S100000x1_S100000 := by
    show StableHlo.after hostOps2 (W4 m ρ c) (Proc.devRef .tc main_v50) = _
    after_results_simp
    rw [show W4 m ρ c (Proc.devRef .tc main_v49_1) = (dat1 (V3 m ρ) c).arrAt 13 cfg1.N from W4_arr m ρ c 13] <;> rfl
  rw [e]
  exact Column.shapeCast_a1_a_apply _ _ i

end Cert.KerSide

end
-- ==== Proof.RefLayers.lean ====
/-
  The reference program's two layers and its head, read row by row.

  Each host operation of the reference is read at an index through the generated stage lemmas; the layout operations
  (broadcasts along a row or a column, transposes) only move the index, the two contractions are sums over the
  contracted coordinate, and the two row sums start from the zero word. What is left is, operation by operation, the
  row functions of the specification: the activation row, its mean, its mean squared deviation, the normalised row;
  and for the head the clamped hidden row, its weighted sum and the logistic function written as 1 / (1 + exp(-x)).
  The neighbour sums and in-degrees (the scatter stages) are carried as they are.
-/
import proofs.«105037_j12884901888283_1_alg».proof.Proof.Gen.ReferenceIdeal.Read
import proofs.«105037_j12884901888283_1_alg».proof.Proof.Spec

open scoped BigOperators

noncomputable section

namespace Cert.RefSide

open Cert.ReferenceIdeal Cert.ReferenceIdeal.Read Idealize.ShloMosaic Idealize.ShloMosaic.ValueIdx

/-- Two rank-2 indices are equal when their coordinates are. -/
local macro "ref_idx2" : tactic =>
  `(tactic| exact funext fun a => Fin.ext (by match a with | ⟨0, _⟩ => rfl | ⟨1, _⟩ => rfl))
/-- Two rank-1 indices are equal when their coordinate is. -/
local macro "ref_idx1" : tactic =>
  `(tactic| exact funext fun a => Fin.ext (by match a with | ⟨0, _⟩ => rfl))

/-! ## Layer 1 -/

section Layer1
variable (x0 : (⟨S100000x64, .f32⟩ : BufTy).Contents (Elt Ideal)) (x1 : (⟨S2x1600000, .i32⟩ : BufTy).Contents (Elt Ideal))
  (x2 x3 : (⟨S128x64, .f32⟩ : BufTy).Contents (Elt Ideal)) (x4 x5 x6 : (⟨S128, .f32⟩ : BufTy).Contents (Elt Ideal))

/-- The in-degree clamped below at one, as the row's divisor. -/
private theorem deg1 (i : Fin 100000) (k : Fin 64) :
    val_main_v20 (F := Ideal) x1 (ix2 i k) = max (val_main_v17 (F := Ideal) x1 (ix1 i)) Sage.wOne := by
  rewrite [val_main_v20_apply, show idx_main_v20 (ix2 i k) = ix2 i (0 : Fin 1) from by ref_idx2,
    val_main_v19_apply, show idx_main_v19 (ix2 i (0 : Fin 1)) = ix1 i from by ref_idx1,
    val_main_v18_apply, val_main_call0_v1_apply, val_main_call0_v0_apply, val_main_cst_3_apply]
  exact max_comm _ _

/-- The activation at `(i, j)`: the two contractions read as sums over the contracted coordinate, the bias row, the clamp at zero. -/
private theorem act1 (i : Fin 100000) (j : Fin 128) :
    val_main_v30 (F := Ideal) x0 x1 x2 x3 x4 (ix2 i j)
      = Sage.act (fun k : Fin 64 => x0 (ix2 i k)) (fun k : Fin 64 => val_main_v13 (F := Ideal) x0 x1 (ix2 i k))
          (val_main_v17 (F := Ideal) x1 (ix1 i))
          (fun (k : Fin 64) (j : Fin 128) => x2 (ix2 j k)) (fun (k : Fin 64) (j : Fin 128) => x3 (ix2 j k))
          (fun j : Fin 128 => x4 (ix1 j)) j := by
  have h23 : val_main_v23 (F := Ideal) x0 x2 (ix2 i j) = ∑ k : Fin 64, x0 (ix2 i k) * x2 (ix2 j k) := by
    rewrite [val_main_v23_apply]
    refine Finset.sum_congr rfl fun k _ => ?_
    rewrite [show lidx_main_v23 (ix2 i j) k = ix2 i k from by ref_idx2, show ridx_main_v23 (ix2 i j) k = ix2 k j from by ref_idx2,
      val_main_v22_apply, show idx_main_v22 (ix2 k j) = ix2 j k from by ref_idx2]
    rfl
  have h25 : val_main_v25 (F := Ideal) x0 x1 x3 (ix2 i j)
      = ∑ k : Fin 64, Ideal.div (val_main_v13 (F := Ideal) x0 x1 (ix2 i k))
          (max (val_main_v17 (F := Ideal) x1 (ix1 i)) Sage.wOne) * x3 (ix2 j k) := by
    rewrite [val_main_v25_apply]
    refine Finset.sum_congr rfl fun k _ => ?_
    rewrite [show lidx_main_v25 (ix2 i j) k = ix2 i k from by ref_idx2, show ridx_main_v25 (ix2 i j) k = ix2 k j from by ref_idx2,
      val_main_v24_apply, show idx_main_v24 (ix2 k j) = ix2 j k from by ref_idx2, val_main_v21_apply, deg1]
    rfl
  have h28 : val_main_v28 (F := Ideal) x4 (ix2 i j) = x4 (ix1 j) := by
    rewrite [val_main_v28_apply, show idx_main_v28 (ix2 i j) = ix2 (0 : Fin 1) j from by ref_idx2, val_main_v27_apply,
      show idx_main_v27 (ix2 (0 : Fin 1) j) = ix1 j from by ref_idx1]
    rfl
  rewrite [val_main_v30_apply, val_main_v29_apply, val_main_v26_apply, h23, h25, h28, val_main_call1_v0_apply,
    val_main_call1_cst_apply]
  rfl

/-- The row sum of the activations: the sum starts from the zero word. -/
private theorem sum1 (i : Fin 100000) :
    val_main_v31 (F := Ideal) x0 x1 x2 x3 x4 (ix1 i) = ∑ j : Fin 128, val_main_v30 (F := Ideal) x0 x1 x2 x3 x4 (ix2 i j) := by
  rewrite [val_main_v31_apply, val_main_cst_4_apply, Ideal.ofBits_def, Ideal.ofBits_zero_f32, zero_add]
  refine Finset.sum_congr rfl fun k _ => ?_
  rewrite [show idx_main_v31 (ix1 i) k = ix2 i k from by ref_idx2]
  rfl

/-- The row mean, in its column form. -/
private theorem mean1 (i : Fin 100000) :
    val_main_v34 (F := Ideal) x0 x1 x2 x3 x4 (ix2 i (0 : Fin 1)) = Sage.mean Sage.w128 (fun j : Fin 128 => val_main_v30 (F := Ideal) x0 x1 x2 x3 x4 (ix2 i j)) := by
  rewrite [val_main_v34_apply, val_main_v32_apply, show idx_main_v32 (ix2 i (0 : Fin 1)) = ix1 i from by ref_idx1, sum1,
    val_main_v33_apply, val_main_cst_5_apply]
  rfl

/-- The deviation from the row mean (the copy that is squared). -/
private theorem devSq1 (i : Fin 100000) (j : Fin 128) :
    val_main_v36 (F := Ideal) x0 x1 x2 x3 x4 (ix2 i j) = val_main_v30 (F := Ideal) x0 x1 x2 x3 x4 (ix2 i j) - Sage.mean Sage.w128 (fun j : Fin 128 => val_main_v30 (F := Ideal) x0 x1 x2 x3 x4 (ix2 i j)) := by
  rewrite [val_main_v36_apply, val_main_v35_apply, show idx_main_v35 (ix2 i j) = ix2 i (0 : Fin 1) from by ref_idx2, mean1]
  rfl

/-- The deviation from the row mean (the copy that is scaled). -/
private theorem dev1 (i : Fin 100000) (j : Fin 128) :
    val_main_v43 (F := Ideal) x0 x1 x2 x3 x4 (ix2 i j) = val_main_v30 (F := Ideal) x0 x1 x2 x3 x4 (ix2 i j) - Sage.mean Sage.w128 (fun j : Fin 128 => val_main_v30 (F := Ideal) x0 x1 x2 x3 x4 (ix2 i j)) := by
  rewrite [val_main_v43_apply, val_main_v42_apply, show idx_main_v42 (ix2 i j) = ix2 i (0 : Fin 1) from by ref_idx2, mean1]
  rfl

/-- The mean squared deviation of the row, in its column form. -/
private theorem msd1 (i : Fin 100000) :
    val_main_v41 (F := Ideal) x0 x1 x2 x3 x4 (ix2 i (0 : Fin 1)) = Sage.msd Sage.w128 (fun j : Fin 128 => val_main_v30 (F := Ideal) x0 x1 x2 x3 x4 (ix2 i j)) := by
  have hs : val_main_v38 (F := Ideal) x0 x1 x2 x3 x4 (ix1 i)
      = ∑ j : Fin 128, (val_main_v30 (F := Ideal) x0 x1 x2 x3 x4 (ix2 i j) - Sage.mean Sage.w128 (fun j : Fin 128 => val_main_v30 (F := Ideal) x0 x1 x2 x3 x4 (ix2 i j)))
          * (val_main_v30 (F := Ideal) x0 x1 x2 x3 x4 (ix2 i j) - Sage.mean Sage.w128 (fun j : Fin 128 => val_main_v30 (F := Ideal) x0 x1 x2 x3 x4 (ix2 i j))) := by
    rewrite [val_main_v38_apply, val_main_cst_6_apply, Ideal.ofBits_def, Ideal.ofBits_zero_f32, zero_add]
    refine Finset.sum_congr rfl fun k _ => ?_
    rewrite [show idx_main_v38 (ix1 i) k = ix2 i k from by ref_idx2, val_main_v37_apply, devSq1]
    rfl
  rewrite [val_main_v41_apply, val_main_v39_apply, show idx_main_v39 (ix2 i (0 : Fin 1)) = ix1 i from by ref_idx1, hs,
    val_main_v40_apply, val_main_cst_7_apply]
  rfl

end Layer1

/-- Layer 1 of the reference, row `i`, entry `j`: the specification's layer row of the row's own features, its neighbour sum and its in-degree. -/
theorem layer1 (x0 : (⟨S100000x64, .f32⟩ : BufTy).Contents (Elt Ideal)) (x1 : (⟨S2x1600000, .i32⟩ : BufTy).Contents (Elt Ideal)) (x2 x3 : (⟨S128x64, .f32⟩ : BufTy).Contents (Elt Ideal)) (x4 x5 x6 : (⟨S128, .f32⟩ : BufTy).Contents (Elt Ideal))
    (i : Fin 100000) (j : Fin 128) :
    val_main_v54 (F := Ideal) x0 x1 x2 x3 x4 x5 x6 (ix2 i j)
      = Sage.layer Sage.w128 (fun k : Fin 64 => x0 (ix2 i k)) (fun k : Fin 64 => val_main_v13 (F := Ideal) x0 x1 (ix2 i k))
          (val_main_v17 (F := Ideal) x1 (ix1 i))
          (fun (k : Fin 64) (j : Fin 128) => x2 (ix2 j k)) (fun (k : Fin 64) (j : Fin 128) => x3 (ix2 j k))
          (fun j : Fin 128 => x4 (ix1 j)) (fun j : Fin 128 => x5 (ix1 j)) (fun j : Fin 128 => x6 (ix1 j)) j := by
  have hrow : (fun j : Fin 128 => val_main_v30 (F := Ideal) x0 x1 x2 x3 x4 (ix2 i j))
      = Sage.act (fun k : Fin 64 => x0 (ix2 i k)) (fun k : Fin 64 => val_main_v13 (F := Ideal) x0 x1 (ix2 i k))
          (val_main_v17 (F := Ideal) x1 (ix1 i))
          (fun (k : Fin 64) (j : Fin 128) => x2 (ix2 j k)) (fun (k : Fin 64) (j : Fin 128) => x3 (ix2 j k))
          (fun j : Fin 128 => x4 (ix1 j)) :=
    funext fun j => act1 x0 x1 x2 x3 x4 i j
  have h50 : val_main_v50 (F := Ideal) x5 (ix2 i j) = x5 (ix1 j) := by
    rewrite [val_main_v50_apply, show idx_main_v50 (ix2 i j) = ix2 (0 : Fin 1) j from by ref_idx2, val_main_v49_apply,
      show idx_main_v49 (ix2 (0 : Fin 1) j) = ix1 j from by ref_idx1]
    rfl
  have h53 : val_main_v53 (F := Ideal) x6 (ix2 i j) = x6 (ix1 j) := by
    rewrite [val_main_v53_apply, show idx_main_v53 (ix2 i j) = ix2 (0 : Fin 1) j from by ref_idx2, val_main_v52_apply,
      show idx_main_v52 (ix2 (0 : Fin 1) j) = ix1 j from by ref_idx1]
    rfl
  have h47 : val_main_v47 (F := Ideal) x0 x1 x2 x3 x4 (ix2 i j)
      = Ideal.rsqrt (Sage.msd Sage.w128 (fun j : Fin 128 => val_main_v30 (F := Ideal) x0 x1 x2 x3 x4 (ix2 i j)) + Sage.wEps) := by
    rewrite [val_main_v47_apply, show idx_main_v47 (ix2 i j) = ix2 i (0 : Fin 1) from by ref_idx2, val_main_v46_apply, val_main_v45_apply,
      msd1, val_main_v44_apply, val_main_cst_8_apply]
    rfl
  rewrite [val_main_v54_apply, val_main_v51_apply, val_main_v48_apply, dev1, h47, h50, h53, hrow, act1 x0 x1 x2 x3 x4 i j]
  rfl

/-! ## Layer 2 -/

section Layer2
variable (x0 : (⟨S100000x64, .f32⟩ : BufTy).Contents (Elt Ideal)) (x1 : (⟨S2x1600000, .i32⟩ : BufTy).Contents (Elt Ideal))
  (x2 x3 : (⟨S128x64, .f32⟩ : BufTy).Contents (Elt Ideal)) (x4 x5 x6 : (⟨S128, .f32⟩ : BufTy).Contents (Elt Ideal))
  (x7 x8 : (⟨S64x128, .f32⟩ : BufTy).Contents (Elt Ideal)) (x9 x10 x11 : (⟨S64, .f32⟩ : BufTy).Contents (Elt Ideal))

/-- The in-degree clamped below at one, as the row's divisor. -/
private theorem deg2 (i : Fin 100000) (k : Fin 128) :
    val_main_v75 (F := Ideal) x1 (ix2 i k) = max (val_main_v72 (F := Ideal) x1 (ix1 i)) Sage.wOne := by
  rewrite [val_main_v75_apply, show idx_main_v75 (ix2 i k) = ix2 i (0 : Fin 1) from by ref_idx2,
    val_main_v74_apply, show idx_main_v74 (ix2 i (0 : Fin 1)) = ix1 i from by ref_idx1,
    val_main_v73_apply, val_main_call2_v1_apply, val_main_call2_v0_apply, val_main_cst_14_apply]
  exact max_comm _ _

/-- The activation at `(i, j)`: the two contractions read as sums over the contracted coordinate, the bias row, the clamp at zero. -/
private theorem act2 (i : Fin 100000) (j : Fin 64) :
    val_main_v85 (F := Ideal) x0 x1 x2 x3 x4 x5 x6 x7 x8 x9 (ix2 i j)
      = Sage.act (fun k : Fin 128 => val_main_v54 (F := Ideal) x0 x1 x2 x3 x4 x5 x6 (ix2 i k)) (fun k : Fin 128 => val_main_v68 (F := Ideal) x0 x1 x2 x3 x4 x5 x6 (ix2 i k))
          (val_main_v72 (F := Ideal) x1 (ix1 i))
          (fun (k : Fin 128) (j : Fin 64) => x7 (ix2 j k)) (fun (k : Fin 128) (j : Fin 64) => x8 (ix2 j k))
          (fun j : Fin 64 => x9 (ix1 j)) j := by
  have h23 : val_main_v78 (F := Ideal) x0 x1 x2 x3 x4 x5 x6 x7 (ix2 i j) = ∑ k : Fin 128, val_main_v54 (F := Ideal) x0 x1 x2 x3 x4 x5 x6 (ix2 i k) * x7 (ix2 j k) := by
    rewrite [val_main_v78_apply]
    refine Finset.sum_congr rfl fun k _ => ?_
    rewrite [show lidx_main_v78 (ix2 i j) k = ix2 i k from by ref_idx2, show ridx_main_v78 (ix2 i j) k = ix2 k j from by ref_idx2,
      val_main_v77_apply, show idx_main_v77 (ix2 k j) = ix2 j k from by ref_idx2]
    rfl
  have h25 : val_main_v80 (F := Ideal) x0 x1 x2 x3 x4 x5 x6 x8 (ix2 i j)
      = ∑ k : Fin 128, Ideal.div (val_main_v68 (F := Ideal) x0 x1 x2 x3 x4 x5 x6 (ix2 i k))
          (max (val_main_v72 (F := Ideal) x1 (ix1 i)) Sage.wOne) * x8 (ix2 j k) := by
    rewrite [val_main_v80_apply]
    refine Finset.sum_congr rfl fun k _ => ?_
    rewrite [show lidx_main_v80 (ix2 i j) k = ix2 i k from by ref_idx2, show ridx_main_v80 (ix2 i j) k = ix2 k j from by ref_idx2,
      val_main_v79_apply, show idx_main_v79 (ix2 k j) = ix2 j k from by ref_idx2, val_main_v76_apply, deg2]
    rfl
  have h28 : val_main_v83 (F := Ideal) x9 (ix2 i j) = x9 (ix1 j) := by
    rewrite [val_main_v83_apply, show idx_main_v83 (ix2 i j) = ix2 (0 : Fin 1) j from by ref_idx2, val_main_v82_apply,
      show idx_main_v82 (ix2 (0 : Fin 1) j) = ix1 j from by ref_idx1]
    rfl
  rewrite [val_main_v85_apply, val_main_v84_apply, val_main_v81_apply, h23, h25, h28, val_main_call3_v0_apply,
    val_main_call3_cst_apply]
  rfl

/-- The row sum of the activations: the sum starts from the zero word. -/
private theorem sum2 (i : Fin 100000) :
    val_main_v86 (F := Ideal) x0 x1 x2 x3 x4 x5 x6 x7 x8 x9 (ix1 i) = ∑ j : Fin 64, val_main_v85 (F := Ideal) x0 x1 x2 x3 x4 x5 x6 x7 x8 x9 (ix2 i j) := by
  rewrite [val_main_v86_apply, val_main_cst_15_apply, Ideal.ofBits_def, Ideal.ofBits_zero_f32, zero_add]
  refine Finset.sum_congr rfl fun k _ => ?_
  rewrite [show idx_main_v86 (ix1 i) k = ix2 i k from by ref_idx2]
  rfl

/-- The row mean, in its column form. -/
private theorem mean2 (i : Fin 100000) :
    val_main_v89 (F := Ideal) x0 x1 x2 x3 x4 x5 x6 x7 x8 x9 (ix2 i (0 : Fin 1)) = Sage.mean Sage.w64 (fun j : Fin 64 => val_main_v85 (F := Ideal) x0 x1 x2 x3 x4 x5 x6 x7 x8 x9 (ix2 i j)) := by
  rewrite [val_main_v89_apply, val_main_v87_apply, show idx_main_v87 (ix2 i (0 : Fin 1)) = ix1 i from by ref_idx1, sum2,
    val_main_v88_apply, val_main_cst_16_apply]
  rfl

/-- The deviation from the row mean (the copy that is squared). -/
private theorem devSq2 (i : Fin 100000) (j : Fin 64) :
    val_main_v91 (F := Ideal) x0 x1 x2 x3 x4 x5 x6 x7 x8 x9 (ix2 i j) = val_main_v85 (F := Ideal) x0 x1 x2 x3 x4 x5 x6 x7 x8 x9 (ix2 i j) - Sage.mean Sage.w64 (fun j : Fin 64 => val_main_v85 (F := Ideal) x0 x1 x2 x3 x4 x5 x6 x7 x8 x9 (ix2 i j)) := by
  rewrite [val_main_v91_apply, val_main_v90_apply, show idx_main_v90 (ix2 i j) = ix2 i (0 : Fin 1) from by ref_idx2, mean2]
  rfl

/-- The deviation from the row mean (the copy that is scaled). -/
private theorem dev2 (i : Fin 100000) (j : Fin 64) :
    val_main_v98 (F := Ideal) x0 x1 x2 x3 x4 x5 x6 x7 x8 x9 (ix2 i j) = val_main_v85 (F := Ideal) x0 x1 x2 x3 x4 x5 x6 x7 x8 x9 (ix2 i j) - Sage.mean Sage.w64 (fun j : Fin 64 => val_main_v85 (F := Ideal) x0 x1 x2 x3 x4 x5 x6 x7 x8 x9 (ix2 i j)) := by
  rewrite [val_main_v98_apply, val_main_v97_apply, show idx_main_v97 (ix2 i j) = ix2 i (0 : Fin 1) from by ref_idx2, mean2]
  rfl

/-- The mean squared deviation of the row, in its column form. -/
private theorem msd2 (i : Fin 100000) :
    val_main_v96 (F := Ideal) x0 x1 x2 x3 x4 x5 x6 x7 x8 x9 (ix2 i (0 : Fin 1)) = Sage.msd Sage.w64 (fun j : Fin 64 => val_main_v85 (F := Ideal) x0 x1 x2 x3 x4 x5 x6 x7 x8 x9 (ix2 i j)) := by
  have hs : val_main_v93 (F := Ideal) x0 x1 x2 x3 x4 x5 x6 x7 x8 x9 (ix1 i)
      = ∑ j : Fin 64, (val_main_v85 (F := Ideal) x0 x1 x2 x3 x4 x5 x6 x7 x8 x9 (ix2 i j) - Sage.mean Sage.w64 (fun j : Fin 64 => val_main_v85 (F := Ideal) x0 x1 x2 x3 x4 x5 x6 x7 x8 x9 (ix2 i j)))
          * (val_main_v85 (F := Ideal) x0 x1 x2 x3 x4 x5 x6 x7 x8 x9 (ix2 i j) - Sage.mean Sage.w64 (fun j : Fin 64 => val_main_v85 (F := Ideal) x0 x1 x2 x3 x4 x5 x6 x7 x8 x9 (ix2 i j))) := by
    rewrite [val_main_v93_apply, val_main_cst_17_apply, Ideal.ofBits_def, Ideal.ofBits_zero_f32, zero_add]
    refine Finset.sum_congr rfl fun k _ => ?_
    rewrite [show idx_main_v93 (ix1 i) k = ix2 i k from by ref_idx2, val_main_v92_apply, devSq2]
    rfl
  rewrite [val_main_v96_apply, val_main_v94_apply, show idx_main_v94 (ix2 i (0 : Fin 1)) = ix1 i from by ref_idx1, hs,
    val_main_v95_apply, val_main_cst_18_apply]
  rfl

end Layer2

/-- Layer 2 of the reference, row `i`, entry `j`: the specification's layer row of the row's own features, its neighbour sum and its in-degree. -/
theorem layer2 (x0 : (⟨S100000x64, .f32⟩ : BufTy).Contents (Elt Ideal)) (x1 : (⟨S2x1600000, .i32⟩ : BufTy).Contents (Elt Ideal)) (x2 x3 : (⟨S128x64, .f32⟩ : BufTy).Contents (Elt Ideal)) (x4 x5 x6 : (⟨S128, .f32⟩ : BufTy).Contents (Elt Ideal)) (x7 x8 : (⟨S64x128, .f32⟩ : BufTy).Contents (Elt Ideal)) (x9 x10 x11 : (⟨S64, .f32⟩ : BufTy).Contents (Elt Ideal))
    (i : Fin 100000) (j : Fin 64) :
    val_main_v109 (F := Ideal) x0 x1 x2 x3 x4 x5 x6 x7 x8 x9 x10 x11 (ix2 i j)
      = Sage.layer Sage.w64 (fun k : Fin 128 => val_main_v54 (F := Ideal) x0 x1 x2 x3 x4 x5 x6 (ix2 i k)) (fun k : Fin 128 => val_main_v68 (F := Ideal) x0 x1 x2 x3 x4 x5 x6 (ix2 i k))
          (val_main_v72 (F := Ideal) x1 (ix1 i))
          (fun (k : Fin 128) (j : Fin 64) => x7 (ix2 j k)) (fun (k : Fin 128) (j : Fin 64) => x8 (ix2 j k))
          (fun j : Fin 64 => x9 (ix1 j)) (fun j : Fin 64 => x10 (ix1 j)) (fun j : Fin 64 => x11 (ix1 j)) j := by
  have hrow : (fun j : Fin 64 => val_main_v85 (F := Ideal) x0 x1 x2 x3 x4 x5 x6 x7 x8 x9 (ix2 i j))
      = Sage.act (fun k : Fin 128 => val_main_v54 (F := Ideal) x0 x1 x2 x3 x4 x5 x6 (ix2 i k)) (fun k : Fin 128 => val_main_v68 (F := Ideal) x0 x1 x2 x3 x4 x5 x6 (ix2 i k))
          (val_main_v72 (F := Ideal) x1 (ix1 i))
          (fun (k : Fin 128) (j : Fin 64) => x7 (ix2 j k)) (fun (k : Fin 128) (j : Fin 64) => x8 (ix2 j k))
          (fun j : Fin 64 => x9 (ix1 j)) :=
    funext fun j => act2 x0 x1 x2 x3 x4 x5 x6 x7 x8 x9 i j
  have h50 : val_main_v105 (F := Ideal) x10 (ix2 i j) = x10 (ix1 j) := by
    rewrite [val_main_v105_apply, show idx_main_v105 (ix2 i j) = ix2 (0 : Fin 1) j from by ref_idx2, val_main_v104_apply,
      show idx_main_v104 (ix2 (0 : Fin 1) j) = ix1 j from by ref_idx1]
    rfl
  have h53 : val_main_v108 (F := Ideal) x11 (ix2 i j) = x11 (ix1 j) := by
    rewrite [val_main_v108_apply, show idx_main_v108 (ix2 i j) = ix2 (0 : Fin 1) j from by ref_idx2, val_main_v107_apply,
      show idx_main_v107 (ix2 (0 : Fin 1) j) = ix1 j from by ref_idx1]
    rfl
  have h47 : val_main_v102 (F := Ideal) x0 x1 x2 x3 x4 x5 x6 x7 x8 x9 (ix2 i j)
      = Ideal.rsqrt (Sage.msd Sage.w64 (fun j : Fin 64 => val_main_v85 (F := Ideal) x0 x1 x2 x3 x4 x5 x6 x7 x8 x9 (ix2 i j)) + Sage.wEps) := by
    rewrite [val_main_v102_apply, show idx_main_v102 (ix2 i j) = ix2 i (0 : Fin 1) from by ref_idx2, val_main_v101_apply, val_main_v100_apply,
      msd2, val_main_v99_apply, val_main_cst_19_apply]
    rfl
  rewrite [val_main_v109_apply, val_main_v106_apply, val_main_v103_apply, dev2, h47, h50, h53, hrow, act2 x0 x1 x2 x3 x4 x5 x6 x7 x8 x9 i j]
  rfl

/-! ## The head -/

section Head
variable (x0 : (⟨S100000x64, .f32⟩ : BufTy).Contents (Elt Ideal)) (x1 : (⟨S2x1600000, .i32⟩ : BufTy).Contents (Elt Ideal))
  (x2 x3 : (⟨S128x64, .f32⟩ : BufTy).Contents (Elt Ideal)) (x4 x5 x6 : (⟨S128, .f32⟩ : BufTy).Contents (Elt Ideal))
  (x7 x8 : (⟨S64x128, .f32⟩ : BufTy).Contents (Elt Ideal)) (x9 x10 x11 : (⟨S64, .f32⟩ : BufTy).Contents (Elt Ideal))
  (x12 : (⟨S16x64, .f32⟩ : BufTy).Contents (Elt Ideal)) (x13 : (⟨S16, .f32⟩ : BufTy).Contents (Elt Ideal)) (x14 : (⟨S1x16, .f32⟩ : BufTy).Contents (Elt Ideal)) (x15 : (⟨S1, .f32⟩ : BufTy).Contents (Elt Ideal))

/-- The head's hidden row at `(i, k)`: a contraction with the first matrix, the bias row, the clamp at zero. -/
private theorem hidden (i : Fin 100000) (k : Fin 16) :
    val_main_v115 (F := Ideal) x0 x1 x2 x3 x4 x5 x6 x7 x8 x9 x10 x11 x12 x13 (ix2 i k)
      = max ((∑ j : Fin 64, val_main_v109 (F := Ideal) x0 x1 x2 x3 x4 x5 x6 x7 x8 x9 x10 x11 (ix2 i j) * x12 (ix2 k j)) + x13 (ix1 k)) Sage.wZero := by
  have h111 : val_main_v111 (F := Ideal) x0 x1 x2 x3 x4 x5 x6 x7 x8 x9 x10 x11 x12 (ix2 i k)
      = ∑ j : Fin 64, val_main_v109 (F := Ideal) x0 x1 x2 x3 x4 x5 x6 x7 x8 x9 x10 x11 (ix2 i j) * x12 (ix2 k j) := by
    rewrite [val_main_v111_apply]
    refine Finset.sum_congr rfl fun j _ => ?_
    rewrite [show lidx_main_v111 (ix2 i k) j = ix2 i j from by ref_idx2, show ridx_main_v111 (ix2 i k) j = ix2 j k from by ref_idx2,
      val_main_v110_apply, show idx_main_v110 (ix2 j k) = ix2 k j from by ref_idx2]
    rfl
  have h113 : val_main_v113 (F := Ideal) x13 (ix2 i k) = x13 (ix1 k) := by
    rewrite [val_main_v113_apply, show idx_main_v113 (ix2 i k) = ix2 (0 : Fin 1) k from by ref_idx2, val_main_v112_apply,
      show idx_main_v112 (ix2 (0 : Fin 1) k) = ix1 k from by ref_idx1]
    rfl
  rewrite [val_main_v115_apply, val_main_v114_apply, h111, h113, val_main_call4_v0_apply, val_main_call4_cst_apply]
  rfl

end Head

/-- The reference's score of row `i`: the specification's head of the second layer's row. The program writes the
    logistic function as `1 / (1 + exp (-x))`, with the word of `1.0` for both ones. -/
theorem score (x0 : (⟨S100000x64, .f32⟩ : BufTy).Contents (Elt Ideal)) (x1 : (⟨S2x1600000, .i32⟩ : BufTy).Contents (Elt Ideal))
  (x2 x3 : (⟨S128x64, .f32⟩ : BufTy).Contents (Elt Ideal)) (x4 x5 x6 : (⟨S128, .f32⟩ : BufTy).Contents (Elt Ideal))
  (x7 x8 : (⟨S64x128, .f32⟩ : BufTy).Contents (Elt Ideal)) (x9 x10 x11 : (⟨S64, .f32⟩ : BufTy).Contents (Elt Ideal))
  (x12 : (⟨S16x64, .f32⟩ : BufTy).Contents (Elt Ideal)) (x13 : (⟨S16, .f32⟩ : BufTy).Contents (Elt Ideal)) (x14 : (⟨S1x16, .f32⟩ : BufTy).Contents (Elt Ideal)) (x15 : (⟨S1, .f32⟩ : BufTy).Contents (Elt Ideal))
    (i : Fin 100000) :
    val_main_v127 (F := Ideal) x0 x1 x2 x3 x4 x5 x6 x7 x8 x9 x10 x11 x12 x13 x14 x15 (ix1 i)
      = Sage.head (fun j : Fin 64 => val_main_v109 (F := Ideal) x0 x1 x2 x3 x4 x5 x6 x7 x8 x9 x10 x11 (ix2 i j))
          (fun (j : Fin 64) (k : Fin 16) => x12 (ix2 k j)) (fun k : Fin 16 => x13 (ix1 k)) (fun k : Fin 16 => x14 (ix2 0 k))
          (x15 (ix1 0)) := by
  have h117 : val_main_v117 (F := Ideal) x0 x1 x2 x3 x4 x5 x6 x7 x8 x9 x10 x11 x12 x13 x14 (ix2 i (0 : Fin 1))
      = ∑ k : Fin 16, max ((∑ j : Fin 64, val_main_v109 (F := Ideal) x0 x1 x2 x3 x4 x5 x6 x7 x8 x9 x10 x11 (ix2 i j) * x12 (ix2 k j)) + x13 (ix1 k)) Sage.wZero * x14 (ix2 (0 : Fin 1) k) := by
    rewrite [val_main_v117_apply]
    refine Finset.sum_congr rfl fun k _ => ?_
    rewrite [show lidx_main_v117 (ix2 i (0 : Fin 1)) k = ix2 i k from by ref_idx2,
      show ridx_main_v117 (ix2 i (0 : Fin 1)) k = ix2 k (0 : Fin 1) from by ref_idx2,
      val_main_v116_apply, show idx_main_v116 (ix2 k (0 : Fin 1)) = ix2 (0 : Fin 1) k from by ref_idx2, hidden]
    rfl
  have h119 : val_main_v119 (F := Ideal) x15 (ix2 i (0 : Fin 1)) = x15 (ix1 (0 : Fin 1)) := by
    rewrite [val_main_v119_apply, show idx_main_v119 (ix2 i (0 : Fin 1)) = ix2 (0 : Fin 1) (0 : Fin 1) from by ref_idx2,
      val_main_v118_apply, show idx_main_v118 (ix2 (0 : Fin 1) (0 : Fin 1)) = ix1 (0 : Fin 1) from by ref_idx1]
    rfl
  have h127 : idx_main_v127 (ix1 i) = ix2 i (0 : Fin 1) :=
    funext fun a => Fin.ext (by match a with | ⟨0, _⟩ => exact Nat.div_one _ | ⟨1, _⟩ => rfl)
  rewrite [val_main_v127_apply, h127, val_main_v126_apply, val_main_v125_apply, val_main_cst_21_apply, val_main_v124_apply,
    val_main_v123_apply, val_main_cst_20_apply, val_main_v122_apply, val_main_v121_apply, val_main_v120_apply, h117, h119,
    Ideal.ofBits_def, Sage.wOne_eq]
  rfl

end Cert.RefSide

end
-- ==== Proof.KerValue.lean ====
/-
  The kernel program's two result arrays are the reference's two result stages of the arguments.

  The first layer's region leaves in its output array the first layer of the arrays it found; those are the launched
  features, the reference's own neighbour-sum and degree stages, and re-laid copies of the parameters, so the array is
  the reference's first-layer stage. The host operations between the regions then compute what the reference computes
  from that stage, and the second region's two outputs are, row by row, the second layer and the head of those: the
  reference's second-layer stage and its scores.
-/
import proofs.«105037_j12884901888283_1_alg».proof.Proof.KerBlocks0
import proofs.«105037_j12884901888283_1_alg».proof.Proof.KerBlocks1
import proofs.«105037_j12884901888283_1_alg».proof.Proof.KerBody0
import proofs.«105037_j12884901888283_1_alg».proof.Proof.KerBody1
import proofs.«105037_j12884901888283_1_alg».proof.Proof.KerHost0
import proofs.«105037_j12884901888283_1_alg».proof.Proof.KerHost1
import proofs.«105037_j12884901888283_1_alg».proof.Proof.RefLayers

set_option maxRecDepth 16384

noncomputable section

namespace Cert.KerSide

open Cert.KernelIdeal Cert.KernelIdeal.Gen Cert.KernelIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg)

theorem body0 : Body0 := fun x0 x1 x2 x3 x4 x5 x6 x7 p j => out0_8_apply x0 x1 x2 x3 x4 x5 x6 x7 p j
theorem body1_12 : Body1_12 := fun x0 x1 x2 x3 x4 x5 x6 x7 x8 x9 x10 x11 p j => out1_12_apply x0 x1 x2 x3 x4 x5 x6 x7 x8 x9 x10 x11 p j
theorem body1_13 : Body1_13 := fun x0 x1 x2 x3 x4 x5 x6 x7 x8 x9 x10 x11 p u => out1_13_apply x0 x1 x2 x3 x4 x5 x6 x7 x8 x9 x10 x11 p u

/-- The first layer's output array is the reference's first-layer stage of the arguments. -/
theorem layer1_eq (c : Dev nD) :
    ((dat0 (V1 m ρ) c).arrAt 8 cfg0.N : S100000x128.Idx → EReal)
      = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [final0_8 (V1 m ρ) body0 c]
  funext i
  obtain ⟨r, j, rfl⟩ : ∃ (r : Fin 100000) (j : Fin 128), i = ix2 r j := ⟨i 0, i 1, eq_ix2 i⟩
  unfold G0
  rw [Sage.layerArr_apply, Cert.RefSide.layer1]
  exact Sage.layer_congr _ (fun k => congrFun (V1_arg0 m ρ c) _) (fun k => congrFun (V1_v13 m ρ c) _) (V1_v18 m ρ c r)
    (fun k j => V1_v19 m ρ c k j) (fun k j => V1_v20 m ρ c k j) (fun j => V1_v21 m ρ c j) (fun j => V1_v22 m ρ c j) (fun j => V1_v23 m ρ c j) j

/-- The second layer of the arrays the second region finds is the reference's second-layer stage of the arguments. -/
theorem layer2_eq (c : Dev nD) :
    G1_12 (V3 m ρ) c = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨r, j, rfl⟩ : ∃ (r : Fin 100000) (j : Fin 64), i = ix2 r j := ⟨i 0, i 1, eq_ix2 i⟩
  unfold G1_12
  rw [Sage.layerArr_apply, Cert.RefSide.layer2]
  exact Sage.layer_congr _ (fun k => (congrFun (V3_v24 m ρ c) _).trans (congrFun (layer1_eq m ρ c) _))
    (fun k => congrFun (V3_v34 m ρ c (layer1_eq m ρ c)) _) (V3_v39 m ρ c r)
    (fun k j => V3_v40 m ρ c k j) (fun k j => V3_v41 m ρ c k j) (fun j => V3_v42 m ρ c j) (fun j => V3_v43 m ρ c j) (fun j => V3_v44 m ρ c j) j

/-- The second result array (the second layer's output) after the run. -/
theorem result1_eq (c : Dev nD) :
    W5 m ρ c (Proc.devRef .tc main_v49_0) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W5_v49_0 m ρ c).trans ((final1_12 (V3 m ρ) body1_12 c).trans (layer2_eq m ρ c))

/-- The first result array (the scores) after the run. -/
theorem result0_eq (c : Dev nD) :
    (W5 m ρ c (Proc.devRef .tc main_v50) : S100000.Idx → EReal) = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  funext i
  obtain ⟨r, rfl⟩ : ∃ r : Fin 100000, i = ix1 r := ⟨i 0, eq_ix1 i⟩
  rw [W5_v50, final1_13 (V3 m ρ) body1_13 c]
  unfold G1_13
  rw [Sage.scoreArr_apply, Cert.RefSide.score]
  exact Sage.head_congr (fun j => congrFun (layer2_eq m ρ c) _) (fun j k => V3_v45 m ρ c j k) (fun k => V3_v47 m ρ c k) (fun k => V3_v46 m ρ c k) (V3_v48 m ρ c)

end Cert.KerSide

end
-- ==== Proof.lean ====
/-
  The certificate: a two-layer neighbour-mean message-passing network with per-row normalisation and a scoring head,
  as two row-tiled TensorCore kernels among host gathers and scatter-adds, against the same network written with
  whole-array host operations.

  At the ideal instance both programs compute, for every node, the same expressions of the arguments: the kernels'
  blocks are restrictions of whole-array functions (Proof/KerBlocks0, Proof/KerBlocks1) whose rows are the row functions
  of Proof/Spec (Proof/KerBody0, Proof/KerBody1); the host operations around the kernels are the reference's own
  (Proof/KerHost0, Proof/KerHost1); the reference's stages are the same row functions (Proof/RefLayers). The two kernel
  programs' frames are those of Proof/KernelFrameP and Proof/KernelIdealFrameP; the reference's frame is its run with
  the results dropped; the idealization rewrote no operation, so there is nothing to preserve.
-/
import proofs.«105037_j12884901888283_1_alg».proof.Defs
import proofs.«105037_j12884901888283_1_alg».proof.Proof.Gen.Kernel
import proofs.«105037_j12884901888283_1_alg».proof.Proof.Gen.Kernel.Skeleton
import proofs.«105037_j12884901888283_1_alg».proof.Proof.Gen.Kernel.Points
import proofs.«105037_j12884901888283_1_alg».proof.Proof.KernelFrameP
import proofs.«105037_j12884901888283_1_alg».proof.Proof.Gen.KernelIdeal
import proofs.«105037_j12884901888283_1_alg».proof.Proof.Gen.KernelIdeal.Skeleton
import proofs.«105037_j12884901888283_1_alg».proof.Proof.Gen.KernelIdeal.Points
import proofs.«105037_j12884901888283_1_alg».proof.Proof.KernelIdealFrameP
import proofs.«105037_j12884901888283_1_alg».proof.Proof.Gen.ReferenceIdeal
import proofs.«105037_j12884901888283_1_alg».proof.Proof.Gen.Pre_finite_inputs
import proofs.«105037_j12884901888283_1_alg».proof.Proof.Gen.ReferenceIdeal.Run
import proofs.«105037_j12884901888283_1_alg».proof.Proof.Gen.ReferenceIdeal.Read
import proofs.«105037_j12884901888283_1_alg».proof.Proof.KerRun
import proofs.«105037_j12884901888283_1_alg».proof.Proof.KerValue
import Idealize.ShloMosaic.Adequacy
import Idealize.ShloMosaic.Init

set_option maxRecDepth 16384

noncomputable section

namespace Cert.Proof

open Idealize.ShloMosaic Idealize.SL.Sem

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with the reference's two result stages of the (agreeing) arguments: the scores and the second
    layer's result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v127 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => Cert.ReferenceIdeal.Read.val_main_v109 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c =>
      ⟨(h c).1.trans (Cert.KerSide.result0_eq m ρ c), (h c).2.1.trans (Cert.KerSide.result1_eq m ρ c), (h c).2.2⟩)
      (Cert.KerSide.run_results (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v127_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
    · rw [(h c).2.1, Cert.ReferenceIdeal.Read.val_main_v109_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
